-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S3x96x96 : Shape := ⟨3, ![3, 96, 96]⟩
abbrev S3x96 : Shape := ⟨2, ![3, 96]⟩
abbrev S96x96 : Shape := ⟨2, ![96, 96]⟩
abbrev S96x10 : Shape := ⟨2, ![96, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S3x96x96 : S_.BroadcastsInDim S3x96x96 (![] : Fin 0 → Fin S3x96x96.rank)
  reducesTo_S3x96x96_S_d0_1_2 : S3x96x96.ReducesTo [0, 1, 2] S_
  bcast_S_S3x96 : S_.BroadcastsInDim S3x96 (![] : Fin 0 → Fin S3x96.rank)
  reducesTo_S3x96_S_d0_1 : S3x96.ReducesTo [0, 1] S_
  bcast_S_S96x96 : S_.BroadcastsInDim S96x96 (![] : Fin 0 → Fin S96x96.rank)
  reducesTo_S96x96_S_d0_1 : S96x96.ReducesTo [0, 1] S_
  bcast_S_S96x10 : S_.BroadcastsInDim S96x10 (![] : Fin 0 → Fin S96x10.rank)
  reducesTo_S96x10_S_d0_1 : S96x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S96x10 .f32) (main_arg10 : FVec F S10 .f32) (main_v33 : IVec S_ 1) : IVec S_ 1 :=
  let main_v34 : FVec F S96x10 .f32 := Host.absf main_arg9
  let main_cst_12 : FVec F S_ .f32 := constant S_ .f32 0x7F800000#32
  let main_v35 : FVec F S96x10 .f32 := broadcastInDim S96x10 ![] bcast_S_S96x10 main_cst_12
  let main_v36 : IVec S96x10 1 := cmpf .olt main_v34 main_v35
  let main_c_13 : IVec S_ 1 := constantI S_ 1 1#1
  let main_v37 : IVec S_ 1 := (fun x v => Host.reduce IntOp.andi x v reducesTo_S96x10_S_d0_1 h_S_) main_v36 main_c_13
  let main_v38 : IVec S_ 1 := andi main_v33 main_v37
  let main_v39 : FVec F S10 .f32 := Host.absf main_arg10
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  main_v43

def fn_part1 {F : FTy → Type} [FloatOps F] (main_arg6 : FVec F S3x96 .f32) (main_arg7 : FVec F S96x96 .f32) (main_arg8 : FVec F S96 .f32) (main_arg9 : FVec F S96x10 .f32) (main_arg10 : FVec F S10 .f32) (main_v13 : IVec S_ 1) (main_v16 : IVec S3x96x96 1) : IVec S_ 1 :=
  let main_c_5 : IVec S_ 1 := constantI S_ 1 1#1
  let main_v17 : IVec S_ 1 := (fun x v => Host.reduce IntOp.andi x v reducesTo_S3x96x96_S_d0_1_2 h_S_) main_v16 main_c_5
  let main_v18 : IVec S_ 1 := andi main_v13 main_v17
  let main_v19 : FVec F S3x96 .f32 := Host.absf main_arg6
  let main_cst_6 : FVec F S_ .f32 := constant S_ .f32 0x7F800000#32
  let main_v20 : FVec F S3x96 .f32 := broadcastInDim S3x96 ![] bcast_S_S3x96 main_cst_6
  let main_v21 : IVec S3x96 1 := cmpf .olt main_v19 main_v20
  let main_c_7 : IVec S_ 1 := constantI S_ 1 1#1
  let main_v22 : IVec S_ 1 := (fun x v => Host.reduce IntOp.andi x v reducesTo_S3x96_S_d0_1 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x96 .f32) (main_arg4 : FVec F S96 .f32) (main_arg5 : FVec F S3x96x96 .f32) (main_arg6 : FVec F S3x96 .f32) (main_arg7 : FVec F S96x96 .f32) (main_arg8 : FVec F S96 .f32) (main_arg9 : FVec F S96x10 .f32) (main_arg10 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg3
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg4
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S3x96x96 .f32 := Host.absf main_arg5
  let main_cst_4 : FVec F S_ .f32 := constant S_ .f32 0x7F800000#32
  let main_v15 : FVec F S3x96x96 .f32 := broadcastInDim S3x96x96 ![] bcast_S_S3x96x96 main_cst_4
  let main_v16 : IVec S3x96x96 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S3x96x96 : Shape := ⟨3, ![3, 96, 96]⟩
abbrev S3x96 : Shape := ⟨2, ![3, 96]⟩
abbrev S96x96 : Shape := ⟨2, ![96, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S1x96x96 : Shape := ⟨3, ![1, 96, 96]⟩
abbrev S128 : Shape := ⟨1, ![128]⟩
abbrev S50000x1 : Shape := ⟨2, ![50000, 1]⟩
abbrev S128x1 : Shape := ⟨2, ![128, 1]⟩
abbrev S1x10 : Shape := ⟨2, ![1, 10]⟩
abbrev S128x10 : Shape := ⟨2, ![128, 10]⟩

abbrev nBuf : Space → Nat
  | .hbm => 159
  | .vmem => 46
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x96, .f32⟩
  | 4 => ⟨S96, .f32⟩
  | 5 => ⟨S3x96x96, .f32⟩
  | 6 => ⟨S3x96, .f32⟩
  | 7 => ⟨S96x96, .f32⟩
  | 8 => ⟨S96, .f32⟩
  | 9 => ⟨S96x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x96, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x96, .f32⟩
  | 61 => ⟨S850000x1, .f32⟩
  | 62 => ⟨S850000x96, .f32⟩
  | 63 => ⟨S850000x96, .f32⟩
  | 64 => ⟨S_, .f32⟩
  | 65 => ⟨S50000x96, .f32⟩
  | 66 => ⟨S850000x1, .i32⟩
  | 67 => ⟨S50000x96, .f32⟩
  | 68 => ⟨S1x96, .f32⟩
  | 69 => ⟨S50000x96, .f32⟩
  | 70 => ⟨S1x96x96, .f32⟩
  | 71 => ⟨S96x96, .f32⟩
  | 72 => ⟨S1x96, .f32⟩
  | 73 => ⟨S96, .f32⟩
  | 74 => ⟨S50000x96, .f32⟩
  | 75 => ⟨S_, .i32⟩
  | 76 => ⟨S850000, .i32⟩
  | 77 => ⟨S850000, .i1⟩
  | 78 => ⟨S_, .i32⟩
  | 79 => ⟨S850000, .i32⟩
  | 80 => ⟨S850000, .i32⟩
  | 81 => ⟨S850000, .i32⟩
  | 82 => ⟨S850000x1, .i32⟩
  | 83 => ⟨S850000x96, .f32⟩
  | 84 => ⟨S850000x1, .f32⟩
  | 85 => ⟨S850000x96, .f32⟩
  | 86 => ⟨S850000x96, .f32⟩
  | 87 => ⟨S_, .f32⟩
  | 88 => ⟨S50000x96, .f32⟩
  | 89 => ⟨S850000x1, .i32⟩
  | 90 => ⟨S50000x96, .f32⟩
  | 91 => ⟨S1x96, .f32⟩
  | 92 => ⟨S50000x96, .f32⟩
  | 93 => ⟨S1x96x96, .f32⟩
  | 94 => ⟨S96x96, .f32⟩
  | 95 => ⟨S1x96, .f32⟩
  | 96 => ⟨S96, .f32⟩
  | 97 => ⟨S50000x96, .f32⟩
  | 98 => ⟨S_, .i32⟩
  | 99 => ⟨S850000, .i32⟩
  | 100 => ⟨S850000, .i1⟩
  | 101 => ⟨S_, .i32⟩
  | 102 => ⟨S850000, .i32⟩
  | 103 => ⟨S850000, .i32⟩
  | 104 => ⟨S850000, .i32⟩
  | 105 => ⟨S850000x1, .i32⟩
  | 106 => ⟨S850000x96, .f32⟩
  | 107 => ⟨S850000x1, .f32⟩
  | 108 => ⟨S850000x96, .f32⟩
  | 109 => ⟨S850000x96, .f32⟩
  | 110 => ⟨S_, .f32⟩
  | 111 => ⟨S50000x96, .f32⟩
  | 112 => ⟨S850000x1, .i32⟩
  | 113 => ⟨S50000x96, .f32⟩
  | 114 => ⟨S1x96, .f32⟩
  | 115 => ⟨S50000x96, .f32⟩
  | 116 => ⟨S1x96x96, .f32⟩
  | 117 => ⟨S96x96, .f32⟩
  | 118 => ⟨S1x96, .f32⟩
  | 119 => ⟨S96, .f32⟩
  | 120 => ⟨S50000x96, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000x96, .f32⟩
  | 2 => ⟨S850000x1, .f32⟩
  | 3 => ⟨S850000x96, .f32⟩
  | 4 => ⟨S850000x96, .f32⟩
  | 5 => ⟨S_, .f32⟩
  | 6 => ⟨S50000x96, .f32⟩
  | 7 => ⟨S850000x1, .i32⟩
  | 8 => ⟨S50000x96, .f32⟩
  | 9 => ⟨S1x96, .f32⟩
  | 10 => ⟨S50000x96, .f32⟩
  | 11 => ⟨S_, .f32⟩
  | 12 => ⟨S50000, .f32⟩
  | 13 => ⟨S_, .f32⟩
  | 14 => ⟨S128, .f32⟩
  | 15 => ⟨S50000x1, .i32⟩
  | 16 => ⟨S128, .f32⟩
  | 17 => ⟨S_, .f32⟩
  | 18 => ⟨S128x96, .f32⟩
  | 19 => ⟨S50000x1, .i32⟩
  | 20 => ⟨S128x96, .f32⟩
  | 21 => ⟨S_, .f32⟩
  | 22 => ⟨S_, .f32⟩
  | 23 => ⟨S128, .f32⟩
  | 24 => ⟨S128, .f32⟩
  | 25 => ⟨S128x1, .f32⟩
  | 26 => ⟨S128x96, .f32⟩
  | 27 => ⟨S128x96, .f32⟩
  | 28 => ⟨S1x96, .f32⟩
  | 29 => ⟨S1x10, .f32⟩
  | 30 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S1x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S96x96, .f32⟩
  | .local _ .vmem, ⟨13, _⟩ => ⟨S5000x96, .f32⟩
  | .local _ .vmem, ⟨14, _⟩ => ⟨S5000x96, .f32⟩
  | .local _ .vmem, ⟨15, _⟩ => ⟨S5000x96, .f32⟩
  | .local _ .vmem, ⟨16, _⟩ => ⟨S5000x96, .f32⟩
  | .local _ .vmem, ⟨17, _⟩ => ⟨S1x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S96x96, .f32⟩
  | .local _ .vmem, ⟨23, _⟩ => ⟨S5000x96, .f32⟩
  | .local _ .vmem, ⟨24, _⟩ => ⟨S5000x96, .f32⟩
  | .local _ .vmem, ⟨25, _⟩ => ⟨S5000x96, .f32⟩
  | .local _ .vmem, ⟨26, _⟩ => ⟨S5000x96, .f32⟩
  | .local _ .vmem, ⟨27, _⟩ => ⟨S1x96, .f32⟩
  | .local _ .vmem, ⟨28, _⟩ => ⟨S5000x96, .f32⟩
  | .local _ .vmem, ⟨29, _⟩ => ⟨S5000x96, .f32⟩
  | .local _ .vmem, ⟨30, _⟩ => ⟨S5000x96, .f32⟩
  | .local _ .vmem, ⟨31, _⟩ => ⟨S5000x96, .f32⟩
  | .local _ .vmem, ⟨32, _⟩ => ⟨S96x96, .f32⟩
  | .local _ .vmem, ⟨33, _⟩ => ⟨S5000x96, .f32⟩
  | .local _ .vmem, ⟨34, _⟩ => ⟨S5000x96, .f32⟩
  | .local _ .vmem, ⟨35, _⟩ => ⟨S5000x96, .f32⟩
  | .local _ .vmem, ⟨36, _⟩ => ⟨S5000x96, .f32⟩
  | .local _ .vmem, ⟨37, _⟩ => ⟨S1x96, .f32⟩
  | .local _ .vmem, ⟨38, _⟩ => ⟨S5000x96, .f32⟩
  | .local _ .vmem, ⟨39, _⟩ => ⟨S5000x96, .f32⟩
  | .local _ .vmem, ⟨40, _⟩ => ⟨S128x96, .f32⟩
  | .local _ .vmem, ⟨41, _⟩ => ⟨S96x96, .f32⟩
  | .local _ .vmem, ⟨42, _⟩ => ⟨S1x96, .f32⟩
  | .local _ .vmem, ⟨43, _⟩ => ⟨S96x10, .f32⟩
  | .local _ .vmem, ⟨44, _⟩ => ⟨S1x10, .f32⟩
  | .local _ .vmem, ⟨45, _⟩ => ⟨S128x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_c_12 : Ref sig .tc := ⟨.hbm, 98, rfl⟩
abbrev main_v71 : Ref sig .tc := ⟨.hbm, 99, rfl⟩
abbrev main_v72 : Ref sig .tc := ⟨.hbm, 100, rfl⟩
abbrev main_c_13 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_14 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_c_15 : Ref sig .tc := ⟨.hbm, 121, rfl⟩
abbrev main_v91 : Ref sig .tc := ⟨.hbm, 122, rfl⟩
abbrev main_v92 : Ref sig .tc := ⟨.hbm, 123, rfl⟩
abbrev main_c_16 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_cst_17 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_cst_18 : Ref sig .tc := ⟨.hbm, 139, rfl⟩
abbrev main_v106 : Ref sig .tc := ⟨.hbm, 140, rfl⟩
abbrev main_cst_19 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_cst_20 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_21 : Ref sig .tc := ⟨.hbm, 149, rfl⟩
abbrev main_call1_v0 : Ref sig .tc := ⟨.hbm, 150, rfl⟩
abbrev main_call1_v1 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc8_stg0_0 : Ref sig .tc := ⟨.vmem, 40, rfl⟩
abbrev cc8_stg1_0 : Ref sig .tc := ⟨.vmem, 41, rfl⟩
abbrev cc8_stg2_0 : Ref sig .tc := ⟨.vmem, 42, rfl⟩
abbrev cc8_stg3_0 : Ref sig .tc := ⟨.vmem, 43, rfl⟩
abbrev cc8_stg4_0 : Ref sig .tc := ⟨.vmem, 44, rfl⟩
abbrev cc8_stg5_0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem1_0 : DmaSem sig := 41
abbrev cc8_sem2_0 : DmaSem sig := 42
abbrev cc8_sem3_0 : DmaSem sig := 43
abbrev cc8_sem4_0 : DmaSem sig := 44
abbrev cc8_sem5_0 : DmaSem sig := 45

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x96 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S96x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x96 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S96x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x96 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x96 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x96 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 1 → Memref sig .tc .vmem S128x96 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S96x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S96x10 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x10 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S128x10 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  shapeCasts_S96_S1x96 : S96.ShapeCasts S1x96
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S128 : S_.BroadcastsInDim S128 (![] : Fin 0 → Fin S128.rank)
  bcast_S50000_S50000x1_0 : S50000.BroadcastsInDim S50000x1 (![0] : Fin 1 → Fin S50000x1.rank)
  bcast_S_S128x96 : S_.BroadcastsInDim S128x96 (![] : Fin 0 → Fin S128x96.rank)
  bcast_S128_S128x1_0 : S128.BroadcastsInDim S128x1 (![0] : Fin 1 → Fin S128x1.rank)
  bcast_S128x1_S128x96_0_1 : S128x1.BroadcastsInDim S128x96 (![0, 1] : Fin 2 → Fin S128x96.rank)
  shapeCasts_S10_S1x10 : S10.ShapeCasts S1x10
  shapeCasts_S128x96_S128x96 : S128x96.ShapeCasts S128x96
  broadcasts_S1x96_S128x96 : S1x96.Broadcasts S128x96
  inb_S96x10_S96x10_0_0 : ∀ a, (![0, 0] : Fin 2 → Nat) a + S96x10.size a ≤ S96x10.size a
  h_S96x10 : 0 < S96x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S128x10 : S1x10.Broadcasts S128x10
  inb_S128x10_S128x10_0_0 : ∀ a, (![0, 0] : Fin 2 → Nat) a + S128x10.size a ≤ S128x10.size a
  h_S128x10 : 0 < S128x10.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x96_S5000x96_1_0_0_1_n_n_wf : DotDims.WF S5000x96 S96x96 S5000x96 [1] [0] [0] [1] [] []
  scatter_S128_S50000x1_S50000_n_0_0_1_wf : ScatterDims.WF S128 S50000x1 S50000 [] [0] [0] 1
  scatter_S128x96_S50000x1_S50000x96_1_0_0_1_wf : ScatterDims.WF S128x96 S50000x1 S50000x96 [1] [0] [0] 1
  dot_S128x96_S96x96_S128x96_1_0_0_1_n_n_wf : DotDims.WF S128x96 S96x96 S128x96 [1] [0] [0] [1] [] []
  dot_S128x96_S96x10_S128x10_1_0_0_1_n_n_wf : DotDims.WF S128x96 S96x10 S128x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x96.size a ≤ S50000x96.size a
  hwx1_2 : ∀ i : grid1.Coords, EltTy.bits .f32 = 32 ∨ (Rect.block (s := S50000x96) S5000x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S96x96.size a ≤ S96x96.size a
  hwx2_1 : ∀ i : grid2.Coords, EltTy.bits .f32 = 32 ∨ (Rect.block (s := S96x96) S96x96.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x96.size a ≤ S50000x96.size a
  hwx2_2 : ∀ i : grid2.Coords, EltTy.bits .f32 = 32 ∨ (Rect.block (s := S50000x96) S5000x96.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x96.size a ≤ S50000x96.size a
  hwx3_0 : ∀ i : grid3.Coords, EltTy.bits .f32 = 32 ∨ (Rect.block (s := S50000x96) S5000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x96.size a ≤ S1x96.size a
  hwx3_1 : ∀ i : grid3.Coords, EltTy.bits .f32 = 32 ∨ (Rect.block (s := S1x96) S1x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x96.size a ≤ S50000x96.size a
  hwx3_2 : ∀ i : grid3.Coords, EltTy.bits .f32 = 32 ∨ (Rect.block (s := S50000x96) S5000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x96.size a ≤ S50000x96.size a
  hwx4_0 : ∀ i : grid4.Coords, EltTy.bits .f32 = 32 ∨ (Rect.block (s := S50000x96) S5000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S96x96.size a ≤ S96x96.size a
  hwx4_1 : ∀ i : grid4.Coords, EltTy.bits .f32 = 32 ∨ (Rect.block (s := S96x96) S96x96.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x96.size a ≤ S50000x96.size a
  hwx4_2 : ∀ i : grid4.Coords, EltTy.bits .f32 = 32 ∨ (Rect.block (s := S50000x96) S5000x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x96.size a ≤ S50000x96.size a
  hwx5_0 : ∀ i : grid5.Coords, EltTy.bits .f32 = 32 ∨ (Rect.block (s := S50000x96) S5000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x96.size a ≤ S50000x96.size a
  hwx5_2 : ∀ i : grid5.Coords, EltTy.bits .f32 = 32 ∨ (Rect.block (s := S50000x96) S5000x96.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x96.size a ≤ S50000x96.size a
  hwx6_0 : ∀ i : grid6.Coords, EltTy.bits .f32 = 32 ∨ (Rect.block (s := S50000x96) S5000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x96.size a ≤ S50000x96.size a
  hwx6_2 : ∀ i : grid6.Coords, EltTy.bits .f32 = 32 ∨ (Rect.block (s := S50000x96) S5000x96.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x96.size a ≤ S50000x96.size a
  hwx7_0 : ∀ i : grid7.Coords, EltTy.bits .f32 = 32 ∨ (Rect.block (s := S50000x96) S5000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x96.size a ≤ S1x96.size a
  hwx7_1 : ∀ i : grid7.Coords, EltTy.bits .f32 = 32 ∨ (Rect.block (s := S1x96) S1x96.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x96.size a ≤ S50000x96.size a
  hwx7_2 : ∀ i : grid7.Coords, EltTy.bits .f32 = 32 ∨ (Rect.block (s := S50000x96) S5000x96.size (cc7_transform_2 i) (hinb7_2 i)).WholeWords (EltTy.packing .f32)
  hrank8 : 0 < grid8.rank
  hstage8_0 : ∀ j, (stage8_0 j).IsWhole
  nbuf8_0 : grid8.bufCount reads8_0 true = 1
  hreads8_0 : ∀ i i' : grid8.Coords, (∀ a, reads8_0 a = true → i a = i' a) → cc8_transform_0 i = cc8_transform_0 i'
  hinb8_0 : ∀ (i : grid8.Coords) a, (cc8_transform_0 i a + 1) * S128x96.size a ≤ S128x96.size a
  hwx8_0 : ∀ i : grid8.Coords, EltTy.bits .f32 = 32 ∨ (Rect.block (s := S128x96) S128x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S96x96.size a ≤ S96x96.size a
  hwx8_1 : ∀ i : grid8.Coords, EltTy.bits .f32 = 32 ∨ (Rect.block (s := S96x96) S96x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x96.size a ≤ S1x96.size a
  hwx8_2 : ∀ i : grid8.Coords, EltTy.bits .f32 = 32 ∨ (Rect.block (s := S1x96) S1x96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S96x10.size a ≤ S96x10.size a
  hwx8_3 : ∀ i : grid8.Coords, EltTy.bits .f32 = 32 ∨ (Rect.block (s := S96x10) S96x10.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x10.size a ≤ S1x10.size a
  hwx8_4 : ∀ i : grid8.Coords, EltTy.bits .f32 = 32 ∨ (Rect.block (s := S1x10) S1x10.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x10.size a ≤ S128x10.size a
  hwx8_5 : ∀ i : grid8.Coords, EltTy.bits .f32 = 32 ∨ (Rect.block (s := S128x10) S128x10.size (cc8_transform_5 i) (hinb8_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x96_S50000x1_S50000x96_1_0_0_1 : ScatterDims S128x96 S50000x1 S50000x96 where
  updateWindowDims := [1]
  insertedWindowDims := [0]
  scatterDimsToOperandDims := [0]
  indexVectorDim := 1
  wf := scatter_S128x96_S50000x1_S50000x96_1_0_0_1_wf
def dot_S128x96_S96x96_S128x96_1_0_0_1_n_n : DotDims S128x96 S96x96 S128x96 where
  lhsContracting := [1]
  rhsContracting := [0]
  lhsNonContracting := [0]
  rhsNonContracting := [1]
  lhsBatch := []
  rhsBatch := []
  wf := dot_S128x96_S96x96_S128x96_1_0_0_1_n_n_wf
def dot_S128x96_S96x10_S128x10_1_0_0_1_n_n : DotDims S128x96 S96x10 S128x10 where
  lhsContracting := [1]
  rhsContracting := [0]
  lhsNonContracting := [0]
  rhsNonContracting := [1]
  lhsBatch := []
  rhsBatch := []
  wf := dot_S128x96_S96x10_S128x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x96.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x96.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S96x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S5000x96.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S5000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S5000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S5000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v67) S96x96.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v70) S5000x96.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v83) S5000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v85) S5000x96.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v85) S5000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S5000x96.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v103) S5000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v104) S1x96.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v105) S5000x96.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v116) S128x96.size cc8_transform_0 reads8_0 false true 1 stage8_0 sem8_0
    hrank8 hreads8_0 hinb8_0 nbuf8_0 (Memref.isWhole_whole _) hwx8_0 hstage8_0

abbrev win8_1 : Pipeline.Window sig grid8 :=
  Pipeline.Window.ofSpec (Memref.whole main_arg7) S96x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v117) S1x96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_arg9) S96x10.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v118) S1x10.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v119) S128x10.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x96 : Shape := ⟨2, ![128, 96]⟩
abbrev S96 : Shape := ⟨1, ![96]⟩
abbrev S3x96x96 : Shape := ⟨3, ![3, 96, 96]⟩
abbrev S3x96 : Shape := ⟨2, ![3, 96]⟩
abbrev S96x96 : Shape := ⟨2, ![96, 96]⟩
abbrev S96x10 : Shape := ⟨2, ![96, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S1x96x96 : Shape := ⟨3, ![1, 96, 96]⟩
abbrev S128 : Shape := ⟨1, ![128]⟩
abbrev S50000x1 : Shape := ⟨2, ![50000, 1]⟩
abbrev S128x1 : Shape := ⟨2, ![128, 1]⟩
abbrev S128x10 : Shape := ⟨2, ![128, 10]⟩
abbrev S1x10 : Shape := ⟨2, ![1, 10]⟩

abbrev nBuf : Space → Nat
  | .hbm => 183
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x96, .f32⟩
  | 4 => ⟨S96, .f32⟩
  | 5 => ⟨S3x96x96, .f32⟩
  | 6 => ⟨S3x96, .f32⟩
  | 7 => ⟨S96x96, .f32⟩
  | 8 => ⟨S96, .f32⟩
  | 9 => ⟨S96x10, .f32⟩
  | 10 => ⟨S10, .f32⟩
  | 11 => ⟨S1x800000, .i32⟩
  | 12 => ⟨S800000, .i32⟩
  | 13 => ⟨S1x800000, .i32⟩
  | 14 => ⟨S800000, .i32⟩
  | 15 => ⟨S50000, .i32⟩
  | 16 => ⟨S850000, .i32⟩
  | 17 => ⟨S850000, .i32⟩
  | 18 => ⟨S_, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S_, .i32⟩
  | 42 => ⟨S850000, .i32⟩
  | 43 => ⟨S850000, .i1⟩
  | 44 => ⟨S_, .i32⟩
  | 45 => ⟨S850000, .i32⟩
  | 46 => ⟨S850000, .i32⟩
  | 47 => ⟨S850000, .i32⟩
  | 48 => ⟨S850000x1, .i32⟩
  | 49 => ⟨S850000, .f32⟩
  | 50 => ⟨S850000, .f32⟩
  | 51 => ⟨S50000x96, .f32⟩
  | 52 => ⟨S_, .i32⟩
  | 53 => ⟨S850000, .i32⟩
  | 54 => ⟨S850000, .i1⟩
  | 55 => ⟨S_, .i32⟩
  | 56 => ⟨S850000, .i32⟩
  | 57 => ⟨S850000, .i32⟩
  | 58 => ⟨S850000, .i32⟩
  | 59 => ⟨S850000x1, .i32⟩
  | 60 => ⟨S850000x96, .f32⟩
  | 61 => ⟨S850000x1, .f32⟩
  | 62 => ⟨S850000x96, .f32⟩
  | 63 => ⟨S850000x96, .f32⟩
  | 64 => ⟨S_, .f32⟩
  | 65 => ⟨S50000x96, .f32⟩
  | 66 => ⟨S850000x1, .i32⟩
  | 67 => ⟨S50000x96, .f32⟩
  | 68 => ⟨S1x96, .f32⟩
  | 69 => ⟨S50000x96, .f32⟩
  | 70 => ⟨S50000x96, .f32⟩
  | 71 => ⟨S_, .f32⟩
  | 72 => ⟨S50000x96, .f32⟩
  | 73 => ⟨S50000x96, .f32⟩
  | 74 => ⟨S1x96x96, .f32⟩
  | 75 => ⟨S96x96, .f32⟩
  | 76 => ⟨S1x96, .f32⟩
  | 77 => ⟨S96, .f32⟩
  | 78 => ⟨S50000x96, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x96, .f32⟩
  | 88 => ⟨S850000x1, .f32⟩
  | 89 => ⟨S850000x96, .f32⟩
  | 90 => ⟨S850000x96, .f32⟩
  | 91 => ⟨S_, .f32⟩
  | 92 => ⟨S50000x96, .f32⟩
  | 93 => ⟨S850000x1, .i32⟩
  | 94 => ⟨S50000x96, .f32⟩
  | 95 => ⟨S1x96, .f32⟩
  | 96 => ⟨S50000x96, .f32⟩
  | 97 => ⟨S50000x96, .f32⟩
  | 98 => ⟨S_, .f32⟩
  | 99 => ⟨S50000x96, .f32⟩
  | 100 => ⟨S50000x96, .f32⟩
  | 101 => ⟨S1x96x96, .f32⟩
  | 102 => ⟨S96x96, .f32⟩
  | 103 => ⟨S1x96, .f32⟩
  | 104 => ⟨S96, .f32⟩
  | 105 => ⟨S50000x96, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x96, .f32⟩
  | 115 => ⟨S850000x1, .f32⟩
  | 116 => ⟨S850000x96, .f32⟩
  | 117 => ⟨S850000x96, .f32⟩
  | 118 => ⟨S_, .f32⟩
  | 119 => ⟨S50000x96, .f32⟩
  | 120 => ⟨S850000x1, .i32⟩
  | 121 => ⟨S50000x96, .f32⟩
  | 122 => ⟨S1x96, .f32⟩
  | 123 => ⟨S50000x96, .f32⟩
  | 124 => ⟨S50000x96, .f32⟩
  | 125 => ⟨S_, .f32⟩
  | 126 => ⟨S50000x96, .f32⟩
  | 127 => ⟨S50000x96, .f32⟩
  | _ => ⟨S50000x128, .f32⟩

abbrev hbmTy0_1 (i : Nat) : BufTy := match i % 128 with
  | 0 => ⟨S1x96x96, .f32⟩
  | 1 => ⟨S96x96, .f32⟩
  | 2 => ⟨S1x96, .f32⟩
  | 3 => ⟨S96, .f32⟩
  | 4 => ⟨S50000x96, .f32⟩
  | 5 => ⟨S_, .i32⟩
  | 6 => ⟨S850000, .i32⟩
  | 7 => ⟨S850000, .i1⟩
  | 8 => ⟨S_, .i32⟩
  | 9 => ⟨S850000, .i32⟩
  | 10 => ⟨S850000, .i32⟩
  | 11 => ⟨S850000, .i32⟩
  | 12 => ⟨S850000x1, .i32⟩
  | 13 => ⟨S850000x96, .f32⟩
  | 14 => ⟨S850000x1, .f32⟩
  | 15 => ⟨S850000x96, .f32⟩
  | 16 => ⟨S850000x96, .f32⟩
  | 17 => ⟨S_, .f32⟩
  | 18 => ⟨S50000x96, .f32⟩
  | 19 => ⟨S850000x1, .i32⟩
  | 20 => ⟨S50000x96, .f32⟩
  | 21 => ⟨S1x96, .f32⟩
  | 22 => ⟨S50000x96, .f32⟩
  | 23 => ⟨S50000x96, .f32⟩
  | 24 => ⟨S_, .f32⟩
  | 25 => ⟨S50000x96, .f32⟩
  | 26 => ⟨S50000x96, .f32⟩
  | 27 => ⟨S_, .f32⟩
  | 28 => ⟨S50000, .f32⟩
  | 29 => ⟨S_, .f32⟩
  | 30 => ⟨S128, .f32⟩
  | 31 => ⟨S50000x1, .i32⟩
  | 32 => ⟨S128, .f32⟩
  | 33 => ⟨S_, .f32⟩
  | 34 => ⟨S128x96, .f32⟩
  | 35 => ⟨S50000x1, .i32⟩
  | 36 => ⟨S128x96, .f32⟩
  | 37 => ⟨S_, .f32⟩
  | 38 => ⟨S_, .f32⟩
  | 39 => ⟨S128, .f32⟩
  | 40 => ⟨S128, .f32⟩
  | 41 => ⟨S128x1, .f32⟩
  | 42 => ⟨S128x96, .f32⟩
  | 43 => ⟨S128x96, .f32⟩
  | 44 => ⟨S128x96, .f32⟩
  | 45 => ⟨S1x96, .f32⟩
  | 46 => ⟨S128x96, .f32⟩
  | 47 => ⟨S128x96, .f32⟩
  | 48 => ⟨S_, .f32⟩
  | 49 => ⟨S128x96, .f32⟩
  | 50 => ⟨S128x96, .f32⟩
  | 51 => ⟨S128x10, .f32⟩
  | 52 => ⟨S1x10, .f32⟩
  | 53 => ⟨S128x10, .f32⟩
  | 54 => ⟨S128x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v14 : Ref sig .tc := ⟨.hbm, 31, rfl⟩
abbrev main_c : Ref sig .tc := ⟨.hbm, 32, rfl⟩
abbrev main_v15 : Ref sig .tc := ⟨.hbm, 33, rfl⟩
abbrev main_v16 : Ref sig .tc := ⟨.hbm, 34, rfl⟩
abbrev main_c_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_6 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_call1_cst : Ref sig .tc := ⟨.hbm, 71, rfl⟩
abbrev main_call1_v0 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_9 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_11 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call2_cst : Ref sig .tc := ⟨.hbm, 98, rfl⟩
abbrev main_call2_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_12 : Ref sig .tc := ⟨.hbm, 106, rfl⟩
abbrev main_v75 : Ref sig .tc := ⟨.hbm, 107, rfl⟩
abbrev main_v76 : Ref sig .tc := ⟨.hbm, 108, rfl⟩
abbrev main_c_13 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_14 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_15 : Ref sig .tc := ⟨.hbm, 133, rfl⟩
abbrev main_v97 : Ref sig .tc := ⟨.hbm, 134, rfl⟩
abbrev main_v98 : Ref sig .tc := ⟨.hbm, 135, rfl⟩
abbrev main_c_16 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_17 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_call4_cst : Ref sig .tc := ⟨.hbm, 152, rfl⟩
abbrev main_call4_v0 : Ref sig .tc := ⟨.hbm, 153, rfl⟩
abbrev main_v113 : Ref sig .tc := ⟨.hbm, 154, rfl⟩
abbrev main_cst_18 : Ref sig .tc := ⟨.hbm, 155, rfl⟩
abbrev main_v114 : Ref sig .tc := ⟨.hbm, 156, rfl⟩
abbrev main_cst_19 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_cst_20 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_21 : Ref sig .tc := ⟨.hbm, 165, rfl⟩
abbrev main_call5_v0 : Ref sig .tc := ⟨.hbm, 166, rfl⟩
abbrev main_call5_v1 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_call6_cst : Ref sig .tc := ⟨.hbm, 176, rfl⟩
abbrev main_call6_v0 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  slices_S3x96x96_S1x96x96_0_0_0 : S3x96x96.Slices ![0, 0, 0] S1x96x96
  shapeCasts_S1x96x96_S96x96 : S1x96x96.ShapeCasts S96x96
  slices_S3x96_S1x96_0_0 : S3x96.Slices ![0, 0] S1x96
  shapeCasts_S1x96_S96 : S1x96.ShapeCasts S96
  slices_S3x96x96_S1x96x96_1_0_0 : S3x96x96.Slices ![1, 0, 0] S1x96x96
  slices_S3x96_S1x96_1_0 : S3x96.Slices ![1, 0] S1x96
  slices_S3x96x96_S1x96x96_2_0_0 : S3x96x96.Slices ![2, 0, 0] S1x96x96
  slices_S3x96_S1x96_2_0 : S3x96.Slices ![2, 0] S1x96
  bcast_S_S128 : S_.BroadcastsInDim S128 (![] : Fin 0 → Fin S128.rank)
  bcast_S50000_S50000x1_0 : S50000.BroadcastsInDim S50000x1 (![0] : Fin 1 → Fin S50000x1.rank)
  bcast_S_S128x96 : S_.BroadcastsInDim S128x96 (![] : Fin 0 → Fin S128x96.rank)
  bcast_S128_S128x1_0 : S128.BroadcastsInDim S128x1 (![0] : Fin 1 → Fin S128x1.rank)
  bcast_S128x1_S128x96_0_1 : S128x1.BroadcastsInDim S128x96 (![0, 1] : Fin 2 → Fin S128x96.rank)
  bcast_S1x96_S128x96_0_1 : S1x96.BroadcastsInDim S128x96 (![0, 1] : Fin 2 → Fin S128x96.rank)
  bcast_S10_S1x10_1 : S10.BroadcastsInDim S1x10 (![1] : Fin 1 → Fin S1x10.rank)
  bcast_S1x10_S128x10_0_1 : S1x10.BroadcastsInDim S128x10 (![0, 1] : Fin 2 → Fin S128x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x96_S50000x96_1_0_0_1_n_n_wf : DotDims.WF S50000x96 S96x96 S50000x96 [1] [0] [0] [1] [] []
  scatter_S128_S50000x1_S50000_n_0_0_1_wf : ScatterDims.WF S128 S50000x1 S50000 [] [0] [0] 1
  scatter_S128x96_S50000x1_S50000x96_1_0_0_1_wf : ScatterDims.WF S128x96 S50000x1 S50000x96 [1] [0] [0] 1
  dot_S128x96_S96x96_S128x96_1_0_0_1_n_n_wf : DotDims.WF S128x96 S96x96 S128x96 [1] [0] [0] [1] [] []
  dot_S128x96_S96x10_S128x10_1_0_0_1_n_n_wf : DotDims.WF S128x96 S96x10 S128x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x96_S50000x1_S50000x96_1_0_0_1 : ScatterDims S128x96 S50000x1 S50000x96 where
  updateWindowDims := [1]
  insertedWindowDims := [0]
  scatterDimsToOperandDims := [0]
  indexVectorDim := 1
  wf := scatter_S128x96_S50000x1_S50000x96_1_0_0_1_wf
def dot_S128x96_S96x96_S128x96_1_0_0_1_n_n : DotDims S128x96 S96x96 S128x96 where
  lhsContracting := [1]
  rhsContracting := [0]
  lhsNonContracting := [0]
  rhsNonContracting := [1]
  lhsBatch := []
  rhsBatch := []
  wf := dot_S128x96_S96x96_S128x96_1_0_0_1_n_n_wf
def dot_S128x96_S96x10_S128x10_1_0_0_1_n_n : DotDims S128x96 S96x10 S128x10 where
  lhsContracting := [1]
  rhsContracting := [0]
  lhsNonContracting := [0]
  rhsNonContracting := [1]
  lhsBatch := []
  rhsBatch := []
  wf := dot_S128x96_S96x10_S128x10_1_0_0_1_n_n_wf

class Facts : Prop extends Facts₀ where

variable [Facts]
-- ==== Proof.KernelRun.lean ====
/-
  The idealized kernel's run, with the result buffer named.

  The program is nine kernel launches among stretches of host operations. The generated frame walks it segment by
  segment and keeps, for every boundary between two segments, the contents of every buffer there (`Gen.W0` at the launch,
  …, `Gen.W22` at the return). Its frame statement keeps only the argument arrays of the final state; here the same
  run is read once more, keeping the result buffer as well: at the return it holds what the last boundary's contents
  say, `Gen.W22` at the result's reference.
-/
import proofs.«160234_j8280696947369_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result buffer then holds the
    last boundary's contents at its reference, and the argument arrays are as launched. -/
theorem run : θ_run defs (onTc (τ := τ) (main (F := F))) ⟨m, fun _ => 0, ρ⟩ (fun r => ∀ c : Dev nD,
      r.2.mem ((c.tc : Thread nD τ).loc main_v119) = W22 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v119 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c),
       (h c _ (mem_uc main_arg8 (by decide))).trans (W22_main_arg8 m ρ c),
       (h c _ (mem_uc main_arg9 (by decide))).trans (W22_main_arg9 m ρ c),
       (h c _ (mem_uc main_arg10 (by decide))).trans (W22_main_arg10 m ρ c)⟩)

end Cert.KernelIdeal.Result

end
-- ==== Proof.Chain0.lean ====
/-
  The contents of the kernel program's buffers, boundary by boundary: the start.

  The program's host lines before the first launch prepare, from the edge list alone, the source and destination
  index vectors with the self-loops appended (`main_v5`, `main_v6`) and the symmetric normalisation weight of every
  edge (`main_v29`). These three, and the arguments later lines read, are written by nothing afterwards: they keep
  their contents across every later stretch of host lines (none of which writes them) and across every launch (whose
  arrays they are not). The reference prepares the same three values with the same operations, so each is the
  reference's corresponding stage of the edge-list argument.
-/
import proofs.«160234_j8280696947369_1_alg».proof.Proof.Gen.KernelIdeal.Frame
import proofs.«160234_j8280696947369_1_alg».proof.Proof.RefReadPatched

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The buffers that later lines read and that nothing writes after the first launch is entered. -/
def longLived : List (Ref sig .tc) :=
  [main_v5, main_v6, main_v29, main_arg2, main_arg4, main_arg5, main_arg6, main_arg7, main_arg8, main_arg9, main_arg10]

theorem ne_of_longLived {r : Ref sig .tc} (hr : r ∉ longLived) {b : Ref sig .tc} (hb : b ∈ longLived) : b ≠ r :=
  fun e => hr (e ▸ hb)

/-! ## A long-lived buffer keeps its contents across each stretch of host lines and each launch -/

theorem keep4 {b : Ref sig .tc} (hb : b ∈ longLived) :
    W4 m ρ c (Proc.devRef .tc b) = W3 m ρ c (Proc.devRef .tc b) :=
  W4_of_ne m ρ c b fun w => (ne_of_longLived ((by decide : ∀ w, Pipeline.arrRef spec0 w ∉ longLived) w) hb).symm

theorem keep5 {b : Ref sig .tc} (hb : b ∈ longLived) :
    W5 m ρ c (Proc.devRef .tc b) = W4 m ρ c (Proc.devRef .tc b) :=
  StableHlo.after_of_forall_not_mem (b := Proc.devRef .tc b) _ _ (List.forall_iff_forall_mem.mp (by
    simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep6 {b : Ref sig .tc} (hb : b ∈ longLived) :
    W6 m ρ c (Proc.devRef .tc b) = W5 m ρ c (Proc.devRef .tc b) :=
  W6_of_ne m ρ c b fun w => (ne_of_longLived ((by decide : ∀ w, Pipeline.arrRef spec1 w ∉ longLived) w) hb).symm

theorem keep7 {b : Ref sig .tc} (hb : b ∈ longLived) :
    W7 m ρ c (Proc.devRef .tc b) = W6 m ρ c (Proc.devRef .tc b) :=
  StableHlo.after_of_forall_not_mem (b := Proc.devRef .tc b) _ _ (List.forall_iff_forall_mem.mp (by
    simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep8 {b : Ref sig .tc} (hb : b ∈ longLived) :
    W8 m ρ c (Proc.devRef .tc b) = W7 m ρ c (Proc.devRef .tc b) :=
  W8_of_ne m ρ c b fun w => (ne_of_longLived ((by decide : ∀ w, Pipeline.arrRef spec2 w ∉ longLived) w) hb).symm

theorem keep9 {b : Ref sig .tc} (hb : b ∈ longLived) :
    W9 m ρ c (Proc.devRef .tc b) = W8 m ρ c (Proc.devRef .tc b) :=
  StableHlo.after_of_forall_not_mem (b := Proc.devRef .tc b) _ _ (List.forall_iff_forall_mem.mp (by
    simp only [hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep10 {b : Ref sig .tc} (hb : b ∈ longLived) :
    W10 m ρ c (Proc.devRef .tc b) = W9 m ρ c (Proc.devRef .tc b) :=
  W10_of_ne m ρ c b fun w => (ne_of_longLived ((by decide : ∀ w, Pipeline.arrRef spec3 w ∉ longLived) w) hb).symm

theorem keep11 {b : Ref sig .tc} (hb : b ∈ longLived) :
    W11 m ρ c (Proc.devRef .tc b) = W10 m ρ c (Proc.devRef .tc b) :=
  StableHlo.after_of_forall_not_mem (b := Proc.devRef .tc b) _ _ (List.forall_iff_forall_mem.mp (by
    simp only [hostOps4, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep12 {b : Ref sig .tc} (hb : b ∈ longLived) :
    W12 m ρ c (Proc.devRef .tc b) = W11 m ρ c (Proc.devRef .tc b) :=
  W12_of_ne m ρ c b fun w => (ne_of_longLived ((by decide : ∀ w, Pipeline.arrRef spec4 w ∉ longLived) w) hb).symm

theorem keep13 {b : Ref sig .tc} (hb : b ∈ longLived) :
    W13 m ρ c (Proc.devRef .tc b) = W12 m ρ c (Proc.devRef .tc b) :=
  StableHlo.after_of_forall_not_mem (b := Proc.devRef .tc b) _ _ (List.forall_iff_forall_mem.mp (by
    simp only [hostOps5, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep14 {b : Ref sig .tc} (hb : b ∈ longLived) :
    W14 m ρ c (Proc.devRef .tc b) = W13 m ρ c (Proc.devRef .tc b) :=
  W14_of_ne m ρ c b fun w => (ne_of_longLived ((by decide : ∀ w, Pipeline.arrRef spec5 w ∉ longLived) w) hb).symm

theorem keep15 {b : Ref sig .tc} (hb : b ∈ longLived) :
    W15 m ρ c (Proc.devRef .tc b) = W14 m ρ c (Proc.devRef .tc b) :=
  StableHlo.after_of_forall_not_mem (b := Proc.devRef .tc b) _ _ (List.forall_iff_forall_mem.mp (by
    simp only [hostOps6, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep16 {b : Ref sig .tc} (hb : b ∈ longLived) :
    W16 m ρ c (Proc.devRef .tc b) = W15 m ρ c (Proc.devRef .tc b) :=
  W16_of_ne m ρ c b fun w => (ne_of_longLived ((by decide : ∀ w, Pipeline.arrRef spec6 w ∉ longLived) w) hb).symm

theorem keep17 {b : Ref sig .tc} (hb : b ∈ longLived) :
    W17 m ρ c (Proc.devRef .tc b) = W16 m ρ c (Proc.devRef .tc b) :=
  StableHlo.after_of_forall_not_mem (b := Proc.devRef .tc b) _ _ (List.forall_iff_forall_mem.mp (by
    simp only [hostOps7, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep18 {b : Ref sig .tc} (hb : b ∈ longLived) :
    W18 m ρ c (Proc.devRef .tc b) = W17 m ρ c (Proc.devRef .tc b) :=
  W18_of_ne m ρ c b fun w => (ne_of_longLived ((by decide : ∀ w, Pipeline.arrRef spec7 w ∉ longLived) w) hb).symm

theorem keep19 {b : Ref sig .tc} (hb : b ∈ longLived) :
    W19 m ρ c (Proc.devRef .tc b) = W18 m ρ c (Proc.devRef .tc b) :=
  StableHlo.after_of_forall_not_mem (b := Proc.devRef .tc b) _ _ (List.forall_iff_forall_mem.mp (by
    simp only [hostOps8, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep20 {b : Ref sig .tc} (hb : b ∈ longLived) :
    W20 m ρ c (Proc.devRef .tc b) = W19 m ρ c (Proc.devRef .tc b) :=
  StableHlo.after_of_forall_not_mem (b := Proc.devRef .tc b) _ _ (List.forall_iff_forall_mem.mp (by
    simp only [hostOps8_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

theorem keep21 {b : Ref sig .tc} (hb : b ∈ longLived) :
    W21 m ρ c (Proc.devRef .tc b) = W20 m ρ c (Proc.devRef .tc b) :=
  StableHlo.after_of_forall_not_mem (b := Proc.devRef .tc b) _ _ (List.forall_iff_forall_mem.mp (by
    simp only [hostOps8_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (ne_of_longLived (by decide) hb)))

/-! ## … hence from the first launch's entry to every later boundary -/

theorem keepTo4 {b : Ref sig .tc} (hb : b ∈ longLived) :
    W4 m ρ c (Proc.devRef .tc b) = W3 m ρ c (Proc.devRef .tc b) :=
  keep4 m ρ c hb

theorem keepTo5 {b : Ref sig .tc} (hb : b ∈ longLived) :
    W5 m ρ c (Proc.devRef .tc b) = W3 m ρ c (Proc.devRef .tc b) :=
  (keep5 m ρ c hb).trans (keepTo4 m ρ c hb)

theorem keepTo6 {b : Ref sig .tc} (hb : b ∈ longLived) :
    W6 m ρ c (Proc.devRef .tc b) = W3 m ρ c (Proc.devRef .tc b) :=
  (keep6 m ρ c hb).trans (keepTo5 m ρ c hb)

theorem keepTo7 {b : Ref sig .tc} (hb : b ∈ longLived) :
    W7 m ρ c (Proc.devRef .tc b) = W3 m ρ c (Proc.devRef .tc b) :=
  (keep7 m ρ c hb).trans (keepTo6 m ρ c hb)

theorem keepTo8 {b : Ref sig .tc} (hb : b ∈ longLived) :
    W8 m ρ c (Proc.devRef .tc b) = W3 m ρ c (Proc.devRef .tc b) :=
  (keep8 m ρ c hb).trans (keepTo7 m ρ c hb)

theorem keepTo9 {b : Ref sig .tc} (hb : b ∈ longLived) :
    W9 m ρ c (Proc.devRef .tc b) = W3 m ρ c (Proc.devRef .tc b) :=
  (keep9 m ρ c hb).trans (keepTo8 m ρ c hb)

theorem keepTo10 {b : Ref sig .tc} (hb : b ∈ longLived) :
    W10 m ρ c (Proc.devRef .tc b) = W3 m ρ c (Proc.devRef .tc b) :=
  (keep10 m ρ c hb).trans (keepTo9 m ρ c hb)

theorem keepTo11 {b : Ref sig .tc} (hb : b ∈ longLived) :
    W11 m ρ c (Proc.devRef .tc b) = W3 m ρ c (Proc.devRef .tc b) :=
  (keep11 m ρ c hb).trans (keepTo10 m ρ c hb)

theorem keepTo12 {b : Ref sig .tc} (hb : b ∈ longLived) :
    W12 m ρ c (Proc.devRef .tc b) = W3 m ρ c (Proc.devRef .tc b) :=
  (keep12 m ρ c hb).trans (keepTo11 m ρ c hb)

theorem keepTo13 {b : Ref sig .tc} (hb : b ∈ longLived) :
    W13 m ρ c (Proc.devRef .tc b) = W3 m ρ c (Proc.devRef .tc b) :=
  (keep13 m ρ c hb).trans (keepTo12 m ρ c hb)

theorem keepTo14 {b : Ref sig .tc} (hb : b ∈ longLived) :
    W14 m ρ c (Proc.devRef .tc b) = W3 m ρ c (Proc.devRef .tc b) :=
  (keep14 m ρ c hb).trans (keepTo13 m ρ c hb)

theorem keepTo15 {b : Ref sig .tc} (hb : b ∈ longLived) :
    W15 m ρ c (Proc.devRef .tc b) = W3 m ρ c (Proc.devRef .tc b) :=
  (keep15 m ρ c hb).trans (keepTo14 m ρ c hb)

theorem keepTo16 {b : Ref sig .tc} (hb : b ∈ longLived) :
    W16 m ρ c (Proc.devRef .tc b) = W3 m ρ c (Proc.devRef .tc b) :=
  (keep16 m ρ c hb).trans (keepTo15 m ρ c hb)

theorem keepTo17 {b : Ref sig .tc} (hb : b ∈ longLived) :
    W17 m ρ c (Proc.devRef .tc b) = W3 m ρ c (Proc.devRef .tc b) :=
  (keep17 m ρ c hb).trans (keepTo16 m ρ c hb)

theorem keepTo18 {b : Ref sig .tc} (hb : b ∈ longLived) :
    W18 m ρ c (Proc.devRef .tc b) = W3 m ρ c (Proc.devRef .tc b) :=
  (keep18 m ρ c hb).trans (keepTo17 m ρ c hb)

theorem keepTo19 {b : Ref sig .tc} (hb : b ∈ longLived) :
    W19 m ρ c (Proc.devRef .tc b) = W3 m ρ c (Proc.devRef .tc b) :=
  (keep19 m ρ c hb).trans (keepTo18 m ρ c hb)

theorem keepTo20 {b : Ref sig .tc} (hb : b ∈ longLived) :
    W20 m ρ c (Proc.devRef .tc b) = W3 m ρ c (Proc.devRef .tc b) :=
  (keep20 m ρ c hb).trans (keepTo19 m ρ c hb)

theorem keepTo21 {b : Ref sig .tc} (hb : b ∈ longLived) :
    W21 m ρ c (Proc.devRef .tc b) = W3 m ρ c (Proc.devRef .tc b) :=
  (keep21 m ρ c hb).trans (keepTo20 m ρ c hb)

/-! ## The contents at the first launch's entry -/

/-- After the first stretch: the source indices with the self-loops appended. -/
theorem src1 : W1 m ρ c (Proc.devRef .tc main_v5) = Cert.ReferenceIdeal.ReadP.val_main_v5 (F := Ideal) (m ((c : Thread nD τ).loc main_arg1)) := by
  show StableHlo.after hostOps0 (W0 m ρ c) (Proc.devRef .tc main_v5) = _
  dsimp only [hostOps0]
  after_results_simp
  rfl

/-- After the first stretch: the destination indices with the self-loops appended. -/
theorem dst1 : W1 m ρ c (Proc.devRef .tc main_v6) = Cert.ReferenceIdeal.ReadP.val_main_v6 (F := Ideal) (m ((c : Thread nD τ).loc main_arg1)) := by
  show StableHlo.after hostOps0 (W0 m ρ c) (Proc.devRef .tc main_v6) = _
  dsimp only [hostOps0]
  after_results_simp
  rfl

/-- After the first stretch: where the degree is positive. -/
theorem pos1 : W1 m ρ c (Proc.devRef .tc main_v12) = Cert.ReferenceIdeal.ReadP.val_main_v12 (F := Ideal) (m ((c : Thread nD τ).loc main_arg1)) := by
  show StableHlo.after hostOps0 (W0 m ρ c) (Proc.devRef .tc main_v12) = _
  dsimp only [hostOps0]
  after_results_simp
  rfl

/-- After the first stretch: the reciprocal square root of the degree. -/
theorem rsq1 : W1 m ρ c (Proc.devRef .tc main_v13) = Cert.ReferenceIdeal.ReadP.val_main_v13 (F := Ideal) (m ((c : Thread nD τ).loc main_arg1)) := by
  show StableHlo.after hostOps0 (W0 m ρ c) (Proc.devRef .tc main_v13) = _
  dsimp only [hostOps0]
  after_results_simp
  rfl

/-- After the first stretch: the zero the selection falls back to. -/
theorem zero1 : W1 m ρ c (Proc.devRef .tc main_cst_2) = Cert.ReferenceIdeal.ReadP.val_main_cst_2 (F := Ideal) := by
  show StableHlo.after hostOps0 (W0 m ρ c) (Proc.devRef .tc main_cst_2) = _
  dsimp only [hostOps0]
  after_results_simp
  rfl

/-- The selection, whatever the buffers hold when it is reached: where the first operand is true the second, elsewhere
    the scalar broadcast. (The call's typed references only transport contents along the identity of types.) -/
theorem where_result (W' : Valuation τ sig (Elt Ideal)) :
    StableHlo.after hostOps0_1 W' (Proc.devRef .tc main_v14)
      = select (W' (Proc.devRef .tc main_v12)) (W' (Proc.devRef .tc main_v13))
          (broadcastInDim S50000 ![] bcast_S_S50000 (id (W' (Proc.devRef .tc main_cst_2)))) := by
  dsimp only [hostOps0_1]
  after_results_simp
  rfl

/-- After the selection: the inverse square root of the degree where it is positive, zero elsewhere. -/
theorem dis2 : W2 m ρ c (Proc.devRef .tc main_v14) = Cert.ReferenceIdeal.ReadP.val_main_v14 (F := Ideal) (m ((c : Thread nD τ).loc main_arg1)) := by
  refine (where_result (W1 m ρ c)).trans ?_
  rw [pos1, rsq1, zero1]
  rfl

theorem src2 : W2 m ρ c (Proc.devRef .tc main_v5) = Cert.ReferenceIdeal.ReadP.val_main_v5 (F := Ideal) (m ((c : Thread nD τ).loc main_arg1)) := by
  refine Eq.trans ?_ (src1 m ρ c)
  show StableHlo.after hostOps0_1 (W1 m ρ c) (Proc.devRef .tc main_v5) = _
  generalize W1 m ρ c = W'
  dsimp only [hostOps0_1]
  after_results_simp

theorem dst2 : W2 m ρ c (Proc.devRef .tc main_v6) = Cert.ReferenceIdeal.ReadP.val_main_v6 (F := Ideal) (m ((c : Thread nD τ).loc main_arg1)) := by
  refine Eq.trans ?_ (dst1 m ρ c)
  show StableHlo.after hostOps0_1 (W1 m ρ c) (Proc.devRef .tc main_v6) = _
  generalize W1 m ρ c = W'
  dsimp only [hostOps0_1]
  after_results_simp

/-- At the first launch's entry: the source indices. -/
theorem src3 : W3 m ρ c (Proc.devRef .tc main_v5) = Cert.ReferenceIdeal.ReadP.val_main_v5 (F := Ideal) (m ((c : Thread nD τ).loc main_arg1)) := by
  refine Eq.trans ?_ (src2 m ρ c)
  show StableHlo.after hostOps0_2 (W2 m ρ c) (Proc.devRef .tc main_v5) = _
  generalize W2 m ρ c = W'
  dsimp only [hostOps0_2]
  after_results_simp

/-- At the first launch's entry: the destination indices. -/
theorem dst3 : W3 m ρ c (Proc.devRef .tc main_v6) = Cert.ReferenceIdeal.ReadP.val_main_v6 (F := Ideal) (m ((c : Thread nD τ).loc main_arg1)) := by
  refine Eq.trans ?_ (dst2 m ρ c)
  show StableHlo.after hostOps0_2 (W2 m ρ c) (Proc.devRef .tc main_v6) = _
  generalize W2 m ρ c = W'
  dsimp only [hostOps0_2]
  after_results_simp

/-- At the first launch's entry: the normalisation weight of every edge. -/
theorem norm3 : W3 m ρ c (Proc.devRef .tc main_v29) = Cert.ReferenceIdeal.ReadP.val_main_v29 (F := Ideal) (m ((c : Thread nD τ).loc main_arg1)) := by
  show StableHlo.after hostOps0_2 (W2 m ρ c) (Proc.devRef .tc main_v29) = _
  generalize hW : W2 m ρ c = W'
  dsimp only [hostOps0_2]
  after_results_simp
  subst hW
  rw [src2, dst2, dis2]
  rfl

/-- At the first launch's entry an argument still holds its launch contents: no host line before it writes one. -/
theorem arg3 {b : Ref sig .tc} (hb : b ∈ [main_arg0, main_arg2, main_arg3, main_arg4, main_arg5, main_arg6, main_arg7, main_arg8, main_arg9, main_arg10]) :
    W3 m ρ c (Proc.devRef .tc b) = m ((c : Thread nD τ).loc b) := by
  have e2 : W3 m ρ c (Proc.devRef .tc b) = W2 m ρ c (Proc.devRef .tc b) :=
    StableHlo.after_of_forall_not_mem (b := Proc.devRef .tc b) _ _ (List.forall_iff_forall_mem.mp (by
      simp only [hostOps0_2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (fun e => absurd (e ▸ hb) (by decide))))
  have e1 : W2 m ρ c (Proc.devRef .tc b) = W1 m ρ c (Proc.devRef .tc b) :=
    StableHlo.after_of_forall_not_mem (b := Proc.devRef .tc b) _ _ (List.forall_iff_forall_mem.mp (by
      simp only [hostOps0_1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (fun e => absurd (e ▸ hb) (by decide))))
  have e0 : W1 m ρ c (Proc.devRef .tc b) = W0 m ρ c (Proc.devRef .tc b) :=
    StableHlo.after_of_forall_not_mem (b := Proc.devRef .tc b) _ _ (List.forall_iff_forall_mem.mp (by
      simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (fun e => absurd (e ▸ hb) (by decide))))
  exact e2.trans (e1.trans (e0.trans rfl))

end Cert.KernelIdeal.Chain

end
-- ==== Proof.LibMatmulNN.lean ====
/-
  A matrix product read at an entry, at the ideal instance.

  For a `tpu.matmul` whose dimension numbers are the plain ones — the left operand M×K contracted on its second axis,
  the right operand K×N contracted on its first, no batch axis — into the zero accumulator, the entry at row `a` and
  column `b` is the textbook sum over `k : Fin K` of `lhs (a, k) · rhs (k, b)` on the extended reals: the
  contraction's one-axis index set is identified with `Fin K` and each operand index is named by its coordinates.
  The lemma is stated for any dimension-number record with those five lists, so it applies to every printed record
  of this form whatever the extents.
-/
import Idealize.ShloMosaic.PureOps.Ideal.Laws
import Idealize.ShloMosaic.Lib.ValueIdx

noncomputable section

open scoped BigOperators

namespace Cert.LibMatmulNN

open Idealize.ShloMosaic Idealize.ShloMosaic.ValueIdx

variable {M K N : Nat} {φ₁ φ₂ : FTy}

/-- The contraction shape of a record with one left contracting axis has rank one. -/
theorem contr_rank (d : DotDims ⟨2, ![M, K]⟩ ⟨2, ![K, N]⟩ ⟨2, ![M, N]⟩) (hlc : d.lhsContracting = [1]) :
    d.contr.rank = 1 := by
  rw [d.rank_contr, hlc]; rfl

/-- Its one extent is the left operand's second. -/
theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  have h := d.size_contr 0 (by rw [hlc]; exact Nat.one_pos)
  rw [h]
  simp only [hlc, List.getElem_cons_zero]
  rfl

/-- A rank-2 index read at a position known to be the first is its first coordinate. -/
theorem ix2_val_zero {n0 n1 : Nat} (a : Fin n0) (b : Fin n1) (p : Nat) (hp : p < 2) (h : p = 0) :
    (ix2 a b ⟨p, hp⟩).val = a.val := by subst h; rfl

/-- At a position known to be the second, its second coordinate. -/
theorem ix2_val_one {n0 n1 : Nat} (a : Fin n0) (b : Fin n1) (p : Nat) (hp : p < 2) (h : p = 1) :
    (ix2 a b ⟨p, hp⟩).val = b.val := by subst h; rfl

/-- The left operand's index at output `(a, b)` and contraction position `k` is `(a, k)`. -/
theorem lhsIdx_eq (d : DotDims ⟨2, ![M, K]⟩ ⟨2, ![K, N]⟩ ⟨2, ![M, N]⟩)
    (hlc : d.lhsContracting = [1]) (hln : d.lhsNonContracting = [0]) (hlb : d.lhsBatch = [])
    (a : Fin M) (b : Fin N) (k : Fin K) :
    d.lhsIdx (ix2 a b) ((contrEquiv1 d K (contr_rank d hlc) (contr_size d hlc)).symm k) = ix2 a k := by
  funext c
  apply Fin.ext
  match c with
  | ⟨0, _⟩ =>
    show (d.lhsIdx (ix2 a b) _ (0 : Fin 2)).val = a.val
    have hnb : (0 : Fin 2) ∉ d.lhsBatch := by rw [hlb]; exact List.not_mem_nil
    have hn : (0 : Fin 2) ∈ d.lhsNonContracting := by rw [hln]; exact List.mem_singleton.mpr rfl
    unfold DotDims.lhsIdx
    rw [dif_neg hnb, dif_pos hn]
    simp only [Fin.val_cast]
    exact ix2_val_zero a b _ _ (by simp [hlb, hln])
  | ⟨1, _⟩ =>
    show (d.lhsIdx (ix2 a b) _ (1 : Fin 2)).val = k.val
    rw [DotDims.lhsIdx_val_of_single d hlc]
    exact contrEquiv1_symm_val d K (contr_rank d hlc) (contr_size d hlc) k

/-- The right operand's index there is `(k, b)`. -/
theorem rhsIdx_eq (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (a : Fin M) (b : Fin N) (k : Fin K) :
    d.rhsIdx (ix2 a b) ((contrEquiv1 d K (contr_rank d hlc) (contr_size d hlc)).symm k) = ix2 k b := by
  funext c
  apply Fin.ext
  match c with
  | ⟨0, _⟩ =>
    show (d.rhsIdx (ix2 a b) _ (0 : Fin 2)).val = k.val
    rw [DotDims.rhsIdx_val_of_single d hrc]
    exact contrEquiv1_symm_val d K (contr_rank d hlc) (contr_size d hlc) k
  | ⟨1, _⟩ =>
    show (d.rhsIdx (ix2 a b) _ (1 : Fin 2)).val = b.val
    have hnb : (1 : Fin 2) ∉ d.rhsBatch := by rw [hrb]; exact List.not_mem_nil
    have hn : (1 : Fin 2) ∈ d.rhsNonContracting := by rw [hrn]; exact List.mem_singleton.mpr rfl
    unfold DotDims.rhsIdx
    rw [dif_neg hnb, dif_pos hn]
    simp only [Fin.val_cast]
    exact ix2_val_one a b _ _ (by simp [hlb, hln, hrn])

/-- A plain matrix product into the zero accumulator, read at the entry `(a, b)`: the sum over `k` of the left
    operand's `(a, k)` times the right operand's `(k, b)`. -/
theorem matmul_zero_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    FloatOps.matmul d prec lhs rhs (constant (F := Ideal) ⟨2, ![M, N]⟩ .f32 0x00000000#32) (ix2 a b)
      = ∑ k : Fin K, lhs (ix2 a k) * rhs (ix2 k b) := by
  rw [Ideal.matmul_constant_zero_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

/-- The same for the product written with the vector operation `matmul`, as a printed kernel body applies it. -/
theorem matmul_zero_apply' (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (lhs : FVec Ideal ⟨2, ![M, K]⟩ φ₁) (rhs : FVec Ideal ⟨2, ![K, N]⟩ φ₂) (a : Fin M) (b : Fin N) :
    matmul d prec lhs rhs (constant (F := Ideal) ⟨2, ![M, N]⟩ .f32 0x00000000#32) (ix2 a b)
      = ∑ k : Fin K, lhs (ix2 a k) * rhs (ix2 k b) :=
  matmul_zero_apply d hlc hrc hln hrn hlb hrb prec lhs rhs a b

end Cert.LibMatmulNN

end
-- ==== Proof.LibAffineBlock.lean ====
/-
  An affine map applied to a block, read at an entry, at the ideal instance.

  A matrix product of an M×K block with a K×N matrix into the zero accumulator, plus a one-row bias broadcast over
  the M rows, has at row `r` and column `j` the value `(∑ k, x (r, k) · W (k, j)) + b (0, j)`: the product is the
  textbook sum, and a row broadcast reads the operand's one row. Stated for any plain dimension-number record.
-/
import proofs.«160234_j8280696947369_1_alg».proof.Proof.LibMatmulNN
import Idealize.ShloMosaic.Lib.ValueLayout

noncomputable section

open scoped BigOperators

namespace Cert.LibAffineBlock

open Idealize.ShloMosaic Idealize.ShloMosaic.ValueIdx

variable {M K N : Nat} {φ₁ φ₂ : FTy}

/-- The product plus the broadcast bias at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (r : Fin M) (j : Fin N) :
    addf (matmul d prec x W (constant (F := Ideal) ⟨2, ![M, N]⟩ .f32 0x00000000#32)) (broadcastTo ⟨2, ![M, N]⟩ b hb) (ix2 r j)
      = (∑ k : Fin K, x (ix2 r k) * W (ix2 k j)) + b (ix2 (0 : Fin 1) j) := by
  rw [addf_apply, Cert.LibMatmulNN.matmul_zero_apply' d hlc hrc hln hrn hlb hrb prec x W r j,
    broadcastTo_1b_ab_apply b hb r j]

end Cert.LibAffineBlock

end
-- ==== Proof.BodyValues.lean ====
/-
  What each kernel body stores, entry by entry, on the extended reals.

  Every body of this program loads its whole blocks, computes, and stores one whole block. Three shapes occur:
  a matrix product of a block of 5000 rows with a weight matrix (launches 0, 2, 4, 6); a bias row added to a block of
  5000 rows followed by the positive part (launches 1, 3, 5, 7); and the two-layer head on all 128 pooled rows at once
  (launch 8): a product, a bias, the positive part, a second product and a second bias.
-/
import proofs.«160234_j8280696947369_1_alg».proof.Proof.Gen.KernelIdeal.Frame
import proofs.«160234_j8280696947369_1_alg».proof.Proof.LibAffineBlock
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The offset of a whole-block access is zero on both axes. -/
theorem hz : (![0, 0] : Fin 2 → Nat) = fun _ => 0 := funext fun a => by fin_cases a <;> rfl

/-- Launch 0's body on a block of rows `x0` and the weight matrix `x1`: the entry at row `p`, column `q` of what it
    stores is the sum over `k` of `x0 (p, k) · x1 (k, q)` (the narrowing of both operands to bf16 is the identity on
    extended reals, and the accumulator starts at zero). -/
theorem product0 (x0 : Vec Ideal S5000x128 .f32) (x1 : Vec Ideal S128x96 .f32) (p : Fin 5000) (q : Fin 96) :
    out0_2 (F := Ideal) x0 x1 (ix2 p q) = ∑ k : Fin 128, x0 (ix2 p k) * x1 (ix2 k q) := by
  unfold out0_2
  rw [View.canon_unit_zero hz]
  simp only [View.ld_unit_zero (S := S5000x128) hz, View.ld_unit_zero (S := S128x96) hz]
  unfold k0_pay1
  exact Cert.LibMatmulNN.matmul_zero_apply' dot_S5000x128_S128x96_S5000x96_1_0_0_1_n_n rfl rfl rfl rfl rfl rfl none _ _ p q

/-- Launch 1's body on a block of rows `x0` and the one-row bias `x1`: the entry at row `p`, column `q` of what it
    stores is the positive part of `x0 (p, q) + x1 (0, q)`. -/
theorem biasRelu1 (x0 : Vec Ideal S5000x96 .f32) (x1 : Vec Ideal S1x96 .f32) (p : Fin 5000) (q : Fin 96) :
    out1_2 (F := Ideal) x0 x1 (ix2 p q) = max (x0 (ix2 p q) + x1 (ix2 (0 : Fin 1) q)) 0 := by
  unfold out1_2
  rw [View.canon_unit_zero hz]
  simp only [View.ld_unit_zero (S := S5000x96) hz, View.ld_unit_zero (S := S1x96) hz]
  unfold k1_pay1
  simp only [shapeCast_self]
  rw [maximumf_apply, addf_apply, broadcastTo_1b_ab_apply _ _ p q, broadcast_apply]
  exact congrArg (max _) Ideal.ofBits_zero_f32

/-- Launch 2's body on a block of rows `x0` and the weight matrix `x1`: the entry at row `p`, column `q` of what it
    stores is the sum over `k` of `x0 (p, k) · x1 (k, q)` (the narrowing of both operands to bf16 is the identity on
    extended reals, and the accumulator starts at zero). -/
theorem product2 (x0 : Vec Ideal S5000x96 .f32) (x1 : Vec Ideal S96x96 .f32) (p : Fin 5000) (q : Fin 96) :
    out2_2 (F := Ideal) x0 x1 (ix2 p q) = ∑ k : Fin 96, x0 (ix2 p k) * x1 (ix2 k q) := by
  unfold out2_2
  rw [View.canon_unit_zero hz]
  simp only [View.ld_unit_zero (S := S5000x96) hz, View.ld_unit_zero (S := S96x96) hz]
  unfold k2_pay1
  simp only [shapeCast_self]
  exact Cert.LibMatmulNN.matmul_zero_apply' dot_S5000x96_S96x96_S5000x96_1_0_0_1_n_n rfl rfl rfl rfl rfl rfl none _ _ p q

/-- Launch 3's body on a block of rows `x0` and the one-row bias `x1`: the entry at row `p`, column `q` of what it
    stores is the positive part of `x0 (p, q) + x1 (0, q)`. -/
theorem biasRelu3 (x0 : Vec Ideal S5000x96 .f32) (x1 : Vec Ideal S1x96 .f32) (p : Fin 5000) (q : Fin 96) :
    out3_2 (F := Ideal) x0 x1 (ix2 p q) = max (x0 (ix2 p q) + x1 (ix2 (0 : Fin 1) q)) 0 := by
  unfold out3_2
  rw [View.canon_unit_zero hz]
  simp only [View.ld_unit_zero (S := S5000x96) hz, View.ld_unit_zero (S := S1x96) hz]
  unfold k3_pay1
  simp only [shapeCast_self]
  rw [maximumf_apply, addf_apply, broadcastTo_1b_ab_apply _ _ p q, broadcast_apply]
  exact congrArg (max _) Ideal.ofBits_zero_f32

/-- Launch 4's body on a block of rows `x0` and the weight matrix `x1`: the entry at row `p`, column `q` of what it
    stores is the sum over `k` of `x0 (p, k) · x1 (k, q)` (the narrowing of both operands to bf16 is the identity on
    extended reals, and the accumulator starts at zero). -/
theorem product4 (x0 : Vec Ideal S5000x96 .f32) (x1 : Vec Ideal S96x96 .f32) (p : Fin 5000) (q : Fin 96) :
    out4_2 (F := Ideal) x0 x1 (ix2 p q) = ∑ k : Fin 96, x0 (ix2 p k) * x1 (ix2 k q) := by
  unfold out4_2
  rw [View.canon_unit_zero hz]
  simp only [View.ld_unit_zero (S := S5000x96) hz, View.ld_unit_zero (S := S96x96) hz]
  unfold k4_pay1
  simp only [shapeCast_self]
  exact Cert.LibMatmulNN.matmul_zero_apply' dot_S5000x96_S96x96_S5000x96_1_0_0_1_n_n rfl rfl rfl rfl rfl rfl none _ _ p q

/-- Launch 5's body on a block of rows `x0` and the one-row bias `x1`: the entry at row `p`, column `q` of what it
    stores is the positive part of `x0 (p, q) + x1 (0, q)`. -/
theorem biasRelu5 (x0 : Vec Ideal S5000x96 .f32) (x1 : Vec Ideal S1x96 .f32) (p : Fin 5000) (q : Fin 96) :
    out5_2 (F := Ideal) x0 x1 (ix2 p q) = max (x0 (ix2 p q) + x1 (ix2 (0 : Fin 1) q)) 0 := by
  unfold out5_2
  rw [View.canon_unit_zero hz]
  simp only [View.ld_unit_zero (S := S5000x96) hz, View.ld_unit_zero (S := S1x96) hz]
  unfold k5_pay1
  simp only [shapeCast_self]
  rw [maximumf_apply, addf_apply, broadcastTo_1b_ab_apply _ _ p q, broadcast_apply]
  exact congrArg (max _) Ideal.ofBits_zero_f32

/-- Launch 6's body on a block of rows `x0` and the weight matrix `x1`: the entry at row `p`, column `q` of what it
    stores is the sum over `k` of `x0 (p, k) · x1 (k, q)` (the narrowing of both operands to bf16 is the identity on
    extended reals, and the accumulator starts at zero). -/
theorem product6 (x0 : Vec Ideal S5000x96 .f32) (x1 : Vec Ideal S96x96 .f32) (p : Fin 5000) (q : Fin 96) :
    out6_2 (F := Ideal) x0 x1 (ix2 p q) = ∑ k : Fin 96, x0 (ix2 p k) * x1 (ix2 k q) := by
  unfold out6_2
  rw [View.canon_unit_zero hz]
  simp only [View.ld_unit_zero (S := S5000x96) hz, View.ld_unit_zero (S := S96x96) hz]
  unfold k6_pay1
  simp only [shapeCast_self]
  exact Cert.LibMatmulNN.matmul_zero_apply' dot_S5000x96_S96x96_S5000x96_1_0_0_1_n_n rfl rfl rfl rfl rfl rfl none _ _ p q

/-- Launch 7's body on a block of rows `x0` and the one-row bias `x1`: the entry at row `p`, column `q` of what it
    stores is the positive part of `x0 (p, q) + x1 (0, q)`. -/
theorem biasRelu7 (x0 : Vec Ideal S5000x96 .f32) (x1 : Vec Ideal S1x96 .f32) (p : Fin 5000) (q : Fin 96) :
    out7_2 (F := Ideal) x0 x1 (ix2 p q) = max (x0 (ix2 p q) + x1 (ix2 (0 : Fin 1) q)) 0 := by
  unfold out7_2
  rw [View.canon_unit_zero hz]
  simp only [View.ld_unit_zero (S := S5000x96) hz, View.ld_unit_zero (S := S1x96) hz]
  unfold k7_pay1
  simp only [shapeCast_self]
  rw [maximumf_apply, addf_apply, broadcastTo_1b_ab_apply _ _ p q, broadcast_apply]
  exact congrArg (max _) Ideal.ofBits_zero_f32

/-- The head's hidden row: at pooled row `g` and hidden unit `k`, the positive part of the first affine map. -/
def hidden (x0 : Vec Ideal S128x96 .f32) (x1 : Vec Ideal S96x96 .f32) (x2 : Vec Ideal S1x96 .f32) (g : Fin 128) (k : Fin 96) : EReal :=
  max ((∑ k' : Fin 96, x0 (ix2 g k') * x1 (ix2 k' k)) + x2 (ix2 (0 : Fin 1) k)) 0

/-- Launch 8's body on the pooled rows `x0`, the two weight matrices `x1`, `x3` and the two one-row biases `x2`, `x4`:
    the entry at row `g`, class `q` of what it stores is the second affine map of the hidden row. -/
theorem head8 (x0 : Vec Ideal S128x96 .f32) (x1 : Vec Ideal S96x96 .f32) (x2 : Vec Ideal S1x96 .f32)
    (x3 : Vec Ideal S96x10 .f32) (x4 : Vec Ideal S1x10 .f32) (g : Fin 128) (q : Fin 10) :
    out8_5 (F := Ideal) x0 x1 x2 x3 x4 (ix2 g q)
      = (∑ k : Fin 96, hidden x0 x1 x2 g k * x3 (ix2 k q)) + x4 (ix2 (0 : Fin 1) q) := by
  unfold out8_5
  rw [View.canon_unit_zero hz]
  simp only [View.ld_unit_zero (S := S128x96) hz, View.ld_unit_zero (S := S96x96) hz, View.ld_unit_zero (S := S1x96) hz,
    View.ld_unit_zero (S := S96x10) hz, View.ld_unit_zero (S := S1x10) hz]
  unfold k8_pay1
  simp only [shapeCast_self]
  refine (Cert.LibAffineBlock.affine_apply dot_S128x96_S96x10_S128x10_1_0_0_1_n_n rfl rfl rfl rfl rfl rfl none _ _ _ _ g q).trans ?_
  refine congrArg (· + x4 (ix2 (0 : Fin 1) q)) (Finset.sum_congr rfl fun k _ => ?_)
  refine congrArg (· * x3 (ix2 k q)) ?_
  rw [truncf_apply, maximumf_apply, broadcast_apply]
  refine (congrArg (max _) Ideal.ofBits_zero_f32).trans ?_
  refine congrArg (max · 0) ?_
  exact Cert.LibAffineBlock.affine_apply dot_S128x96_S96x96_S128x96_1_0_0_1_n_n rfl rfl rfl rfl rfl rfl none _ _ _ _ g k

end Cert.KernelIdeal.Body

end
-- ==== Proof.LibDotGeneralNN.lean ====
/-
  A host matrix product read at an entry, at the ideal instance.

  For a `dot_general` on the host whose dimension numbers are the plain ones — the left operand M×K contracted on its
  second axis, the right operand K×N contracted on its first, no batch axis — the entry at row `a` and column `b` is
  the textbook sum over `k : Fin K` of `lhs (a, k) · rhs (k, b)` on the extended reals, whatever the precision and the
  schedule key: the same sum a matrix product into the zero accumulator has. Stated for any dimension-number record
  with those lists.
-/
import proofs.«160234_j8280696947369_1_alg».proof.Proof.LibMatmulNN

noncomputable section

open scoped BigOperators

namespace Cert.LibDotGeneralNN

open Idealize.ShloMosaic Idealize.ShloMosaic.ValueIdx Cert.LibMatmulNN

variable {M K N : Nat} {φ₁ φ₂ : FTy}

/-- A plain host matrix product, read at the entry `(a, b)`: the sum over `k` of the left operand's `(a, k)` times the
    right operand's `(k, b)`. -/
theorem dotGeneral_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule)
    (lhs : FVec Ideal ⟨2, ![M, K]⟩ φ₁) (rhs : FVec Ideal ⟨2, ![K, N]⟩ φ₂) (a : Fin M) (b : Fin N) :
    FloatOps.dotGeneral d prec sched lhs rhs (ix2 a b) = ∑ k : Fin K, lhs (ix2 a k) * rhs (ix2 k b) := by
  rw [Ideal.dotGeneral_apply]
  rw [← Equiv.sum_comp (contrEquiv1 d K (contr_rank d hlc) (contr_size d hlc)).symm]
  refine Finset.sum_congr rfl fun k _ => ?_
  rw [lhsIdx_eq d hlc hln hlb a b k, rhsIdx_eq d hlc hrc hln hrn hlb hrb a b k]

end Cert.LibDotGeneralNN

end
-- ==== Proof.LibHostAffine.lean ====
/-
  Two host-side shapes read at an entry, at the ideal instance.

  (1) A plain `dot_general` of an M×K array with a K×N matrix, plus a bias VECTOR of length N broadcast first to one
  row and then over the M rows, has at row `r` and column `j` the value `(∑ k, x (r, k) · W (k, j)) + b j`.
  (2) The maximum of an array with the broadcast of the scalar constant whose word is all zeros is, entry by entry, the
  maximum with the real number zero (the positive part).
-/
import proofs.«160234_j8280696947369_1_alg».proof.Proof.LibDotGeneralNN
import Idealize.ShloMosaic.Lib.Pipeline.Value

noncomputable section

open scoped BigOperators

namespace Cert.LibHostAffine

open Idealize.ShloMosaic Idealize.ShloMosaic.ValueIdx

variable {M K N : Nat} {φ₁ φ₂ : FTy} {α : Type}

/-- A vector broadcast to one row and then over `M` rows reads, at `(r, j)`, its entry `j`. -/
theorem bias_apply (b : (⟨1, ![N]⟩ : Shape).Idx → α)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h2 (broadcastInDim ⟨2, ![1, N]⟩ (![1] : Fin 1 → Fin 2) h1 b) (ix2 r j)
      = b (ix1 j) := by
  rw [broadcastInDim_apply (![0, 1] : Fin 2 → Fin 2) h2 _ (ix2 r j) (ix2 (0 : Fin 1) j) (fun a => by
    match a with
    | ⟨0, _⟩ => rfl
    | ⟨1, _⟩ =>
      show j.val = if N = 1 then 0 else j.val
      split
      · have := j.isLt; omega
      · rfl)]
  exact broadcastInDim_apply (![1] : Fin 1 → Fin 2) h1 b (ix2 (0 : Fin 1) j) (ix1 j) (fun a => by
    match a with
    | ⟨0, _⟩ =>
      show j.val = if N = 1 then 0 else j.val
      split
      · have := j.isLt; omega
      · rfl)

/-- The host product plus the broadcast bias vector at the entry `(r, j)`. -/
theorem affine_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision)
    (x : FVec Ideal ⟨2, ![M, K]⟩ φ₁) (W : FVec Ideal ⟨2, ![K, N]⟩ φ₂) (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d prec x W)
        (broadcastInDim ⟨2, ![M, N]⟩ (![0, 1] : Fin 2 → Fin 2) h2 (broadcastInDim ⟨2, ![1, N]⟩ (![1] : Fin 1 → Fin 2) h1 b)) (ix2 r j)
      = (∑ k : Fin K, x (ix2 r k) * W (ix2 k j)) + b (ix1 j) := by
  rw [addf_apply, bias_apply b h1 h2 r j]
  simp only [Host.dotGeneral]
  rw [Cert.LibDotGeneralNN.dotGeneral_apply d hlc hrc hln hrn hlb hrb]

/-- The maximum with a broadcast zero constant is the positive part. -/
theorem relu_apply {s : Shape} (x : FVec Ideal s .f32) (h : (⟨0, ![]⟩ : Shape).BroadcastsInDim s (![] : Fin 0 → Fin s.rank))
    (i : s.Idx) :
    maximumf x (broadcastInDim s (![] : Fin 0 → Fin s.rank) h (constant (F := Ideal) ⟨0, ![]⟩ .f32 0x00000000#32)) i
      = max (x i) 0 := by
  show max (x i) (Ideal.ofBits .f32 0x00000000#32) = max (x i) 0
  rw [Ideal.ofBits_zero_f32]

end Cert.LibHostAffine

end
-- ==== Proof.LibRowLayouts.lean ====
/-
  Two layout facts about a one-row array, for any row length and any element type.

  (1) A one-row array `[1, N]` broadcast over `M` rows reads, at `(r, j)`, its entry `(0, j)`.
  (2) Giving a vector `[N]` a leading unit axis by a reshape is the same array as broadcasting it into `[1, N]` along
  the second axis: both read, at `(0, j)`, the vector's entry `j`.
-/
import Idealize.ShloMosaic.Lib.Pipeline.Value
import Idealize.ShloMosaic.Lib.ValueIdx

noncomputable section

namespace Cert.LibRowLayouts

open Idealize.ShloMosaic Idealize.ShloMosaic.ValueIdx

variable {M N : Nat} {α : Type}

/-- A one-row array broadcast over `M` rows reads its one row. -/
theorem rowBroadcast_apply (B : (⟨2, ![1, N]⟩ : Shape).Idx → α)
    (h : (⟨2, ![1, N]⟩ : Shape).BroadcastsInDim ⟨2, ![M, N]⟩ (![0, 1] : Fin 2 → Fin 2)) (r : Fin M) (j : Fin N) :
    broadcastInDim ⟨2, ![M, N]⟩ (![0, 1] : Fin 2 → Fin 2) h B (ix2 r j) = B (ix2 (0 : Fin 1) j) :=
  broadcastInDim_apply (![0, 1] : Fin 2 → Fin 2) h B (ix2 r j) (ix2 (0 : Fin 1) j) (fun a => by
    match a with
    | ⟨0, _⟩ => rfl
    | ⟨1, _⟩ =>
      show j.val = if N = 1 then 0 else j.val
      split
      · have := j.isLt; omega
      · rfl)

/-- The reshape of a vector to one row is its broadcast into one row along the second axis. -/
theorem rowCast_eq (b : (⟨1, ![N]⟩ : Shape).Idx → α) (h : (⟨1, ![N]⟩ : Shape).ShapeCasts ⟨2, ![1, N]⟩)
    (h' : (⟨1, ![N]⟩ : Shape).BroadcastsInDim ⟨2, ![1, N]⟩ (![1] : Fin 1 → Fin 2)) :
    shapeCast ⟨2, ![1, N]⟩ b h = broadcastInDim ⟨2, ![1, N]⟩ (![1] : Fin 1 → Fin 2) h' b := by
  funext i
  have hi : i = ix2 (i 0) (i 1) := eq_ix2 i
  have h0 : (i 0).val = 0 := by have h := (i 0).isLt; show (i 0).val = 0; change (i 0).val < 1 at h; omega
  rw [shapeCast_apply b h i (ix1 (i 1)) (by
    rw [Shape.rowMajor_val_one, Shape.rowMajor_val_two]
    show (i 1).val = (i 0).val * N + (i 1).val
    rw [h0]; omega)]
  exact (broadcastInDim_apply (![1] : Fin 1 → Fin 2) h' b i (ix1 (i 1)) (fun a => by
    match a with
    | ⟨0, _⟩ =>
      show (i 1).val = if N = 1 then 0 else (i 1).val
      split
      · rename_i hN; have h := (i 1).isLt; change (i 1).val < N at h; omega
      · rfl)).symm

end Cert.LibRowLayouts

end
-- ==== Proof.Whole.lean ====
/-
  The whole-array functions the kernel launches compute, written with the reference's own host operations, and each of
  them read at an entry on the extended reals.

  `product0`, `productH`: a matrix product of all 50000 rows with a weight matrix (128×96, or 96×96).
  `biasRelu`: a one-row bias added to every row, then the positive part.
  `head`: product, one-row bias, positive part, second product, second one-row bias, on the 128 pooled rows.
-/
import proofs.«160234_j8280696947369_1_alg».proof.ReferenceIdeal
import proofs.«160234_j8280696947369_1_alg».proof.Proof.Gen.ReferenceIdeal
import proofs.«160234_j8280696947369_1_alg».proof.Proof.LibHostAffine
import proofs.«160234_j8280696947369_1_alg».proof.Proof.LibRowLayouts

noncomputable section

open scoped BigOperators

namespace Cert.Whole

open Idealize.ShloMosaic Idealize.ShloMosaic.ValueIdx Cert.ReferenceIdeal Cert.ReferenceIdeal.Facts₀

/-- All rows of `X` times the first layer's weight matrix. -/
def product0 (X : FVec Ideal S50000x128 .f32) (Wm : FVec Ideal S128x96 .f32) : FVec Ideal S50000x96 .f32 :=
  Host.dotGeneral (F := Ideal) dot_S50000x128_S128x96_S50000x96_1_0_0_1_n_n none X Wm

/-- All rows of `X` times a hidden layer's weight matrix. -/
def productH (X : FVec Ideal S50000x96 .f32) (Wm : FVec Ideal S96x96 .f32) : FVec Ideal S50000x96 .f32 :=
  Host.dotGeneral (F := Ideal) dot_S50000x96_S96x96_S50000x96_1_0_0_1_n_n none X Wm

/-- The one-row bias `B` added to every row of `X`, then the positive part. -/
def biasRelu (X : FVec Ideal S50000x96 .f32) (B : FVec Ideal S1x96 .f32) : FVec Ideal S50000x96 .f32 :=
  maximumf (addf X (broadcastInDim S50000x96 ![0, 1] bcast_S1x96_S50000x96_0_1 B))
    (broadcastInDim S50000x96 ![] bcast_S_S50000x96 (constant (F := Ideal) S_ .f32 0x00000000#32))

/-- The classifier head on the pooled rows `P`. -/
def head (P : FVec Ideal S128x96 .f32) (W1 : FVec Ideal S96x96 .f32) (B1 : FVec Ideal S1x96 .f32)
    (W2 : FVec Ideal S96x10 .f32) (B2 : FVec Ideal S1x10 .f32) : FVec Ideal S128x10 .f32 :=
  addf (Host.dotGeneral (F := Ideal) dot_S128x96_S96x10_S128x10_1_0_0_1_n_n none
      (maximumf (addf (Host.dotGeneral (F := Ideal) dot_S128x96_S96x96_S128x96_1_0_0_1_n_n none P W1)
          (broadcastInDim S128x96 ![0, 1] bcast_S1x96_S128x96_0_1 B1))
        (broadcastInDim S128x96 ![] bcast_S_S128x96 (constant (F := Ideal) S_ .f32 0x00000000#32))) W2)
    (broadcastInDim S128x10 ![0, 1] bcast_S1x10_S128x10_0_1 B2)

theorem product0_apply (X : FVec Ideal S50000x128 .f32) (Wm : FVec Ideal S128x96 .f32) (r : Fin 50000) (q : Fin 96) :
    product0 X Wm (ix2 r q) = ∑ k : Fin 128, X (ix2 r k) * Wm (ix2 k q) := by
  unfold product0
  simp only [Host.dotGeneral]
  exact Cert.LibDotGeneralNN.dotGeneral_apply dot_S50000x128_S128x96_S50000x96_1_0_0_1_n_n rfl rfl rfl rfl rfl rfl none _ X Wm r q

theorem productH_apply (X : FVec Ideal S50000x96 .f32) (Wm : FVec Ideal S96x96 .f32) (r : Fin 50000) (q : Fin 96) :
    productH X Wm (ix2 r q) = ∑ k : Fin 96, X (ix2 r k) * Wm (ix2 k q) := by
  unfold productH
  simp only [Host.dotGeneral]
  exact Cert.LibDotGeneralNN.dotGeneral_apply dot_S50000x96_S96x96_S50000x96_1_0_0_1_n_n rfl rfl rfl rfl rfl rfl none _ X Wm r q

theorem biasRelu_apply (X : FVec Ideal S50000x96 .f32) (B : FVec Ideal S1x96 .f32) (r : Fin 50000) (q : Fin 96) :
    biasRelu X B (ix2 r q) = max (X (ix2 r q) + B (ix2 (0 : Fin 1) q)) 0 := by
  unfold biasRelu
  refine (Cert.LibHostAffine.relu_apply _ bcast_S_S50000x96 (ix2 r q)).trans ?_
  refine congrArg (max · 0) ?_
  rw [addf_apply]
  exact congrArg (X (ix2 r q) + ·) (Cert.LibRowLayouts.rowBroadcast_apply B bcast_S1x96_S50000x96_0_1 r q)

/-- The hidden row of the head: the positive part of the first affine map. -/
def hidden (P : FVec Ideal S128x96 .f32) (W1 : FVec Ideal S96x96 .f32) (B1 : FVec Ideal S1x96 .f32) (g : Fin 128) (k : Fin 96) : EReal :=
  max ((∑ k' : Fin 96, P (ix2 g k') * W1 (ix2 k' k)) + B1 (ix2 (0 : Fin 1) k)) 0

theorem head_apply (P : FVec Ideal S128x96 .f32) (W1 : FVec Ideal S96x96 .f32) (B1 : FVec Ideal S1x96 .f32)
    (W2 : FVec Ideal S96x10 .f32) (B2 : FVec Ideal S1x10 .f32) (g : Fin 128) (q : Fin 10) :
    head P W1 B1 W2 B2 (ix2 g q) = (∑ k : Fin 96, hidden P W1 B1 g k * W2 (ix2 k q)) + B2 (ix2 (0 : Fin 1) q) := by
  unfold head
  rw [addf_apply]
  refine congrArg₂ (· + ·) ?_ (Cert.LibRowLayouts.rowBroadcast_apply B2 bcast_S1x10_S128x10_0_1 g q)
  simp only [Host.dotGeneral]
  refine (Cert.LibDotGeneralNN.dotGeneral_apply dot_S128x96_S96x10_S128x10_1_0_0_1_n_n rfl rfl rfl rfl rfl rfl none _ _ W2 g q).trans ?_
  refine Finset.sum_congr rfl fun k _ => congrArg (· * W2 (ix2 k q)) ?_
  refine (Cert.LibHostAffine.relu_apply _ bcast_S_S128x96 (ix2 g k)).trans ?_
  refine congrArg (max · 0) ?_
  rw [addf_apply]
  refine congrArg₂ (· + ·) ?_ (Cert.LibRowLayouts.rowBroadcast_apply B1 bcast_S1x96_S128x96_0_1 g k)
  exact Cert.LibDotGeneralNN.dotGeneral_apply dot_S128x96_S96x96_S128x96_1_0_0_1_n_n rfl rfl rfl rfl rfl rfl none _ P W1 g k

end Cert.Whole

end
-- ==== Proof.Region0.lean ====
/-
  Launch 0 of the kernel program: the matrix product of all 50000 rows of its first operand with the weight matrix, computed
  in ten blocks of 5000 rows. Point `t` of the grid reads rows `5000·t … 5000·t + 4999` of the first operand and the whole
  weight matrix, and writes the same rows of the output; the ten blocks tile the output, so after the launch the output
  array is the whole product, whatever it held before.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the weight matrix stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block: if `x0` holds rows `5000·T …` of `X` and `x1` holds `Wm`, what the body stores at `(p, q)` is the whole
    product's entry at row `5000·T + p`, column `q`: both are the same sum over the contracted axis. -/
theorem block0_eq (X : FVec Ideal S50000x128 .f32) (Wm : FVec Ideal S128x96 .f32)
    (x0 : Vec Ideal S5000x128 .f32) (x1 : Vec Ideal S128x96 .f32) (T : Nat) (hT : T < 10)
    (hx0 : ∀ (p : Fin 5000) (k : Fin 128), x0 (ix2 p k) = X (ix2 (⟨T * 5000 + p.val, by have := p.isLt; omega⟩ : Fin 50000) k))
    (hx1 : ∀ (k : Fin 128) (q : Fin 96), x1 (ix2 k q) = Wm (ix2 k q)) (p : Fin 5000) (q : Fin 96) :
    out0_2 (F := Ideal) x0 x1 (ix2 p q)
      = Cert.Whole.product0 X Wm (ix2 (⟨T * 5000 + p.val, by have := p.isLt; omega⟩ : Fin 50000) q) := by
  rw [Cert.Whole.product0_apply]
  refine (Body.product0 x0 x1 p q).trans (Finset.sum_congr rfl fun k _ => ?_)
  rw [hx0 p k, hx1 k q]

/-- What point `t` writes back is block `t` of the whole product of the arrays the launch finds. -/
theorem flushed0 (c : Dev nD) (t : Fin cfg0.N) :
    (dat0 V c).flushed 2 t
      = ((cfg0.win 2).blk t).view.read (Elt Ideal) (Cert.Whole.product0 (V c main_arg0) (V c main_arg3)) := by
  show (cfg0.win 2).cut (grid0.coords t) ((dat0 V c).after 2 t) = _
  rw [after0_2]
  obtain ⟨e00, e01, e10, e11, e20, e21⟩ := idx0 t
  have hT : t.val < 10 := lt_of_lt_of_eq t.isLt N_0
  funext j
  show out0_2 (iblk0 V c 0 t) (iblk0 V c 1 t) j
    = Cert.Whole.product0 (V c main_arg0) (V c main_arg3) (((cfg0.win 2).blk t).view.emb j)
  refine (congrArg (out0_2 (iblk0 V c 0 t) (iblk0 V c 1 t)) (eq_ix2 j)).trans ?_
  refine (block0_eq (V c main_arg0) (V c main_arg3) (iblk0 V c 0 t) (iblk0 V c 1 t) t.val hT ?_ ?_ (j 0) (j 1)).trans ?_
  · intro p k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k q
    show V c main_arg3 (((cfg0.win 1).blk t).view.emb (ix2 k q)) = _
    refine congrArg (V c main_arg3) (funext fun a => Fin.ext ?_)
    match a with
    | ⟨0, _⟩ => show win0_1.index t (0 : Fin 2) * 128 + 1 * k.val = k.val; omega
    | ⟨1, _⟩ => show win0_1.index t (1 : Fin 2) * 96 + 1 * q.val = q.val; omega
  · refine congrArg (Cert.Whole.product0 (V c main_arg0) (V c main_arg3)) (funext fun a => Fin.ext ?_)
    match a with
    | ⟨0, _⟩ => show t.val * 5000 + (j 0).val = win0_2.index t (0 : Fin 2) * 5000 + 1 * (j 0).val; omega
    | ⟨1, _⟩ => show (j 1).val = win0_2.index t (1 : Fin 2) * 96 + 1 * (j 1).val; omega

/-- An index of the output array is in point `t`'s block iff each coordinate is in the block's range on its axis. -/
theorem mem_blk0 (t : Fin cfg0.N) (i : S50000x96.Idx) :
    i ∈ ((cfg0.win 2).blk t).view.set ↔ ∀ a : Fin 2, win0_2.index t a * S5000x96.size a ≤ (i a).val
      ∧ (i a).val < win0_2.index t a * S5000x96.size a + S5000x96.size a := by
  show i ∈ ((View.whole main_v30).slice (win0_2.rect t)).set ↔ _
  rw [View.set_slice_whole, Rect.mem_set_unit]
  exact Iff.rfl

/-- Every row of the output lies in the block of the point `row / 5000`. -/
theorem cover0 (i : S50000x96.Idx) :
    ∃ t : Fin cfg0.N, (cfg0.win 2).flush t = true ∧ i ∈ ((cfg0.win 2).blk t).view.set := by
  have hi0 : (i 0).val < 50000 := (i 0).isLt
  have hi1 : (i 1).val < 96 := (i 1).isLt
  have hlt : (i 0).val / 5000 < cfg0.N := lt_of_lt_of_eq (by omega : (i 0).val / 5000 < 10) N_0.symm
  obtain ⟨-, -, -, -, e20, e21⟩ := idx0 ⟨(i 0).val / 5000, hlt⟩
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, hlt⟩ (1 : Fin 2) * 96 ≤ (i 1).val
      ∧ (i 1).val < win0_2.index ⟨(i 0).val / 5000, hlt⟩ (1 : Fin 2) * 96 + 96
    rw [e21]; omega

/-- After the launch its output array is the whole product of the two arrays it found. -/
theorem array0 (c : Dev nD) :
    (dat0 V c).arrAt 2 cfg0.N = Cert.Whole.product0 (V c main_arg0) (V c main_arg3) :=
  (dat0 V c).arrAt_eq_of_cover 2 _ (fun t _ => flushed0 V c t) (cover0)

end Cert.KernelIdeal.Arrays

end
-- ==== Proof.Region1.lean ====
/-
  Launch 1 of the kernel program: a one-row bias added to every row of its first operand, then the positive part, computed in
  ten blocks of 5000 rows. Point `t` reads rows `5000·t … 5000·t + 4999` of the first operand and the one bias row, and
  writes the same rows of the output; the ten blocks tile the output.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the bias row stays. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One block: if `x0` holds rows `5000·T …` of `X` and `x1` holds the bias row `B`, what the body stores at `(p, q)` is
    the whole function's entry at row `5000·T + p`, column `q`. -/
theorem block1_eq (X : FVec Ideal S50000x96 .f32) (B : FVec Ideal S1x96 .f32)
    (x0 : Vec Ideal S5000x96 .f32) (x1 : Vec Ideal S1x96 .f32) (T : Nat) (hT : T < 10)
    (hx0 : ∀ (p : Fin 5000) (q : Fin 96), x0 (ix2 p q) = X (ix2 (⟨T * 5000 + p.val, by have := p.isLt; omega⟩ : Fin 50000) q))
    (hx1 : ∀ q : Fin 96, x1 (ix2 (0 : Fin 1) q) = B (ix2 (0 : Fin 1) q)) (p : Fin 5000) (q : Fin 96) :
    out1_2 (F := Ideal) x0 x1 (ix2 p q)
      = Cert.Whole.biasRelu X B (ix2 (⟨T * 5000 + p.val, by have := p.isLt; omega⟩ : Fin 50000) q) := by
  rw [Cert.Whole.biasRelu_apply]
  refine (Body.biasRelu1 x0 x1 p q).trans ?_
  rw [hx0 p q, hx1 q]

/-- What point `t` writes back is block `t` of the whole function of the arrays the launch finds. -/
theorem flushed1 (c : Dev nD) (t : Fin cfg1.N) :
    (dat1 V c).flushed 2 t
      = ((cfg1.win 2).blk t).view.read (Elt Ideal) (Cert.Whole.biasRelu (V c main_v43) (V c main_v44)) := by
  show (cfg1.win 2).cut (grid1.coords t) ((dat1 V c).after 2 t) = _
  rw [after1_2]
  obtain ⟨e00, e01, e10, e11, e20, e21⟩ := idx1 t
  have hT : t.val < 10 := lt_of_lt_of_eq t.isLt N_1
  funext j
  show out1_2 (iblk1 V c 0 t) (iblk1 V c 1 t) j
    = Cert.Whole.biasRelu (V c main_v43) (V c main_v44) (((cfg1.win 2).blk t).view.emb j)
  refine (congrArg (out1_2 (iblk1 V c 0 t) (iblk1 V c 1 t)) (eq_ix2 j)).trans ?_
  refine (block1_eq (V c main_v43) (V c main_v44) (iblk1 V c 0 t) (iblk1 V c 1 t) t.val hT ?_ ?_ (j 0) (j 1)).trans ?_
  · intro p q
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = t.val * 5000 + p.val; omega
    | ⟨1, _⟩ => show win1_0.index t (1 : Fin 2) * 96 + 1 * q.val = q.val; omega
  · intro q
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 96 + 1 * q.val = q.val; omega
  · refine congrArg (Cert.Whole.biasRelu (V c main_v43) (V c main_v44)) (funext fun a => Fin.ext ?_)
    match a with
    | ⟨0, _⟩ => show t.val * 5000 + (j 0).val = win1_2.index t (0 : Fin 2) * 5000 + 1 * (j 0).val; omega
    | ⟨1, _⟩ => show (j 1).val = win1_2.index t (1 : Fin 2) * 96 + 1 * (j 1).val; omega

/-- An index of the output array is in point `t`'s block iff each coordinate is in the block's range on its axis. -/
theorem mem_blk1 (t : Fin cfg1.N) (i : S50000x96.Idx) :
    i ∈ ((cfg1.win 2).blk t).view.set ↔ ∀ a : Fin 2, win1_2.index t a * S5000x96.size a ≤ (i a).val
      ∧ (i a).val < win1_2.index t a * S5000x96.size a + S5000x96.size a := by
  show i ∈ ((View.whole main_v45).slice (win1_2.rect t)).set ↔ _
  rw [View.set_slice_whole, Rect.mem_set_unit]
  exact Iff.rfl

/-- Every row of the output lies in the block of the point `row / 5000`. -/
theorem cover1 (i : S50000x96.Idx) :
    ∃ t : Fin cfg1.N, (cfg1.win 2).flush t = true ∧ i ∈ ((cfg1.win 2).blk t).view.set := by
  have hi0 : (i 0).val < 50000 := (i 0).isLt
  have hi1 : (i 1).val < 96 := (i 1).isLt
  have hlt : (i 0).val / 5000 < cfg1.N := lt_of_lt_of_eq (by omega : (i 0).val / 5000 < 10) N_1.symm
  obtain ⟨-, -, -, -, e20, e21⟩ := idx1 ⟨(i 0).val / 5000, hlt⟩
  refine ⟨⟨(i 0).val / 5000, hlt⟩, flush1_2 _, ?_⟩
  rw [mem_blk1]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win1_2.index ⟨(i 0).val / 5000, hlt⟩ (1 : Fin 2) * 96 ≤ (i 1).val
      ∧ (i 1).val < win1_2.index ⟨(i 0).val / 5000, hlt⟩ (1 : Fin 2) * 96 + 96
    rw [e21]; omega

/-- After the launch its output array is the bias added to every row of the array it found, then the positive part. -/
theorem array1 (c : Dev nD) :
    (dat1 V c).arrAt 2 cfg1.N = Cert.Whole.biasRelu (V c main_v43) (V c main_v44) :=
  (dat1 V c).arrAt_eq_of_cover 2 _ (fun t _ => flushed1 V c t) (cover1)

end Cert.KernelIdeal.Arrays

end
-- ==== Proof.Chain1.lean ====
/-
  The contents of the kernel program's buffers, boundary by boundary: the first layer.

  The first launch multiplies all node features by the first weight matrix; the host lines after it gather every edge's
  source row, weight it, and add it into the destination row; the second launch adds the bias and takes the positive
  part. Each buffer holds the reference's corresponding stage of the arguments.
-/
import proofs.«160234_j8280696947369_1_alg».proof.Proof.Chain0
import proofs.«160234_j8280696947369_1_alg».proof.Proof.Region0
import proofs.«160234_j8280696947369_1_alg».proof.Proof.Region1
import proofs.«160234_j8280696947369_1_alg».proof.Proof.LibRowLayouts

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- After the first launch: the transformed features, the reference's first matrix product. -/
theorem prod4 : W4 m ρ c (Proc.devRef .tc main_v30) = Cert.ReferenceIdeal.ReadP.val_main_v30 (F := Ideal) (m ((c : Thread nD τ).loc main_arg0)) (m ((c : Thread nD τ).loc main_arg3)) := by
  refine (W4_arr m ρ c 2).trans ?_
  refine (Arrays.array0 (V3 m ρ) c).trans ?_
  show Cert.Whole.product0 (W3 m ρ c (Proc.devRef .tc main_arg0)) (W3 m ρ c (Proc.devRef .tc main_arg3)) = _
  rw [arg3 m ρ c (b := main_arg0) (by decide), arg3 m ρ c (b := main_arg3) (by decide)]
  rfl

/-- The neighbour aggregation of the transformed features: every edge's source row, weighted, added into its
    destination row — the reference's same stage. -/
theorem agg5 : W5 m ρ c (Proc.devRef .tc main_v43) = Cert.ReferenceIdeal.ReadP.val_main_v43 (F := Ideal) (m ((c : Thread nD τ).loc main_arg0)) (m ((c : Thread nD τ).loc main_arg1)) (m ((c : Thread nD τ).loc main_arg3)) := by
  show StableHlo.after hostOps1 (W4 m ρ c) (Proc.devRef .tc main_v43) = _
  dsimp only [hostOps1]
  after_results_simp
  rw [keepTo4 m ρ c (b := main_v5) (by decide), keepTo4 m ρ c (b := main_v6) (by decide), keepTo4 m ρ c (b := main_v29) (by decide),
    src3, dst3, norm3, prod4]
  rfl

/-- The layer's bias as one row: the reshape of the bias vector is the reference's broadcast of it into one row. -/
theorem bias5 : W5 m ρ c (Proc.devRef .tc main_v44) = Cert.ReferenceIdeal.ReadP.val_main_v44 (F := Ideal) (m ((c : Thread nD τ).loc main_arg4)) := by
  show StableHlo.after hostOps1 (W4 m ρ c) (Proc.devRef .tc main_v44) = _
  dsimp only [hostOps1]
  after_results_simp
  rw [keepTo4 m ρ c (b := main_arg4) (by decide), arg3 m ρ c (b := main_arg4) (by decide)]
  exact Cert.LibRowLayouts.rowCast_eq _ _ _

/-- After the bias launch: the layer's output, the reference's positive part of the aggregation plus the bias. -/
theorem feat6 : W6 m ρ c (Proc.devRef .tc main_v45) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := by
  refine (W6_arr m ρ c 2).trans ?_
  refine (Arrays.array1 (V5 m ρ) c).trans ?_
  show Cert.Whole.biasRelu (W5 m ρ c (Proc.devRef .tc main_v43)) (W5 m ρ c (Proc.devRef .tc main_v44)) = _
  rw [agg5, bias5]
  rfl

end Cert.KernelIdeal.Chain

end
-- ==== Proof.Region2.lean ====
/-
  Launch 2 of the kernel program: the matrix product of all 50000 rows of its first operand with the weight matrix, computed
  in ten blocks of 5000 rows. Point `t` of the grid reads rows `5000·t … 5000·t + 4999` of the first operand and the whole
  weight matrix, and writes the same rows of the output; the ten blocks tile the output, so after the launch the output
  array is the whole product, whatever it held before.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the weight matrix stays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- One block: if `x0` holds rows `5000·T …` of `X` and `x1` holds `Wm`, what the body stores at `(p, q)` is the whole
    product's entry at row `5000·T + p`, column `q`: both are the same sum over the contracted axis. -/
theorem block2_eq (X : FVec Ideal S50000x96 .f32) (Wm : FVec Ideal S96x96 .f32)
    (x0 : Vec Ideal S5000x96 .f32) (x1 : Vec Ideal S96x96 .f32) (T : Nat) (hT : T < 10)
    (hx0 : ∀ (p : Fin 5000) (k : Fin 96), x0 (ix2 p k) = X (ix2 (⟨T * 5000 + p.val, by have := p.isLt; omega⟩ : Fin 50000) k))
    (hx1 : ∀ (k : Fin 96) (q : Fin 96), x1 (ix2 k q) = Wm (ix2 k q)) (p : Fin 5000) (q : Fin 96) :
    out2_2 (F := Ideal) x0 x1 (ix2 p q)
      = Cert.Whole.productH X Wm (ix2 (⟨T * 5000 + p.val, by have := p.isLt; omega⟩ : Fin 50000) q) := by
  rw [Cert.Whole.productH_apply]
  refine (Body.product2 x0 x1 p q).trans (Finset.sum_congr rfl fun k _ => ?_)
  rw [hx0 p k, hx1 k q]

/-- What point `t` writes back is block `t` of the whole product of the arrays the launch finds. -/
theorem flushed2 (c : Dev nD) (t : Fin cfg2.N) :
    (dat2 V c).flushed 2 t
      = ((cfg2.win 2).blk t).view.read (Elt Ideal) (Cert.Whole.productH (V c main_v45) (V c main_v47)) := by
  show (cfg2.win 2).cut (grid2.coords t) ((dat2 V c).after 2 t) = _
  rw [after2_2]
  obtain ⟨e00, e01, e10, e11, e20, e21⟩ := idx2 t
  have hT : t.val < 10 := lt_of_lt_of_eq t.isLt N_2
  funext j
  show out2_2 (iblk2 V c 0 t) (iblk2 V c 1 t) j
    = Cert.Whole.productH (V c main_v45) (V c main_v47) (((cfg2.win 2).blk t).view.emb j)
  refine (congrArg (out2_2 (iblk2 V c 0 t) (iblk2 V c 1 t)) (eq_ix2 j)).trans ?_
  refine (block2_eq (V c main_v45) (V c main_v47) (iblk2 V c 0 t) (iblk2 V c 1 t) t.val hT ?_ ?_ (j 0) (j 1)).trans ?_
  · intro p k
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = t.val * 5000 + p.val; omega
    | ⟨1, _⟩ => show win2_0.index t (1 : Fin 2) * 96 + 1 * k.val = k.val; omega
  · intro k q
    show V c main_v47 (((cfg2.win 1).blk t).view.emb (ix2 k q)) = _
    refine congrArg (V c main_v47) (funext fun a => Fin.ext ?_)
    match a with
    | ⟨0, _⟩ => show win2_1.index t (0 : Fin 2) * 96 + 1 * k.val = k.val; omega
    | ⟨1, _⟩ => show win2_1.index t (1 : Fin 2) * 96 + 1 * q.val = q.val; omega
  · refine congrArg (Cert.Whole.productH (V c main_v45) (V c main_v47)) (funext fun a => Fin.ext ?_)
    match a with
    | ⟨0, _⟩ => show t.val * 5000 + (j 0).val = win2_2.index t (0 : Fin 2) * 5000 + 1 * (j 0).val; omega
    | ⟨1, _⟩ => show (j 1).val = win2_2.index t (1 : Fin 2) * 96 + 1 * (j 1).val; omega

/-- An index of the output array is in point `t`'s block iff each coordinate is in the block's range on its axis. -/
theorem mem_blk2 (t : Fin cfg2.N) (i : S50000x96.Idx) :
    i ∈ ((cfg2.win 2).blk t).view.set ↔ ∀ a : Fin 2, win2_2.index t a * S5000x96.size a ≤ (i a).val
      ∧ (i a).val < win2_2.index t a * S5000x96.size a + S5000x96.size a := by
  show i ∈ ((View.whole main_v50).slice (win2_2.rect t)).set ↔ _
  rw [View.set_slice_whole, Rect.mem_set_unit]
  exact Iff.rfl

/-- Every row of the output lies in the block of the point `row / 5000`. -/
theorem cover2 (i : S50000x96.Idx) :
    ∃ t : Fin cfg2.N, (cfg2.win 2).flush t = true ∧ i ∈ ((cfg2.win 2).blk t).view.set := by
  have hi0 : (i 0).val < 50000 := (i 0).isLt
  have hi1 : (i 1).val < 96 := (i 1).isLt
  have hlt : (i 0).val / 5000 < cfg2.N := lt_of_lt_of_eq (by omega : (i 0).val / 5000 < 10) N_2.symm
  obtain ⟨-, -, -, -, e20, e21⟩ := idx2 ⟨(i 0).val / 5000, hlt⟩
  refine ⟨⟨(i 0).val / 5000, hlt⟩, flush2_2 _, ?_⟩
  rw [mem_blk2]
  intro a
  match a with
  | ⟨0, _⟩ =>
    show win2_2.index ⟨(i 0).val / 5000, hlt⟩ (0 : Fin 2) * 5000 ≤ (i 0).val
      ∧ (i 0).val < win2_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win2_2.index ⟨(i 0).val / 5000, hlt⟩ (1 : Fin 2) * 96 ≤ (i 1).val
      ∧ (i 1).val < win2_2.index ⟨(i 0).val / 5000, hlt⟩ (1 : Fin 2) * 96 + 96
    rw [e21]; omega

/-- After the launch its output array is the whole product of the two arrays it found. -/
theorem array2 (c : Dev nD) :
    (dat2 V c).arrAt 2 cfg2.N = Cert.Whole.productH (V c main_v45) (V c main_v47) :=
  (dat2 V c).arrAt_eq_of_cover 2 _ (fun t _ => flushed2 V c t) (cover2)

end Cert.KernelIdeal.Arrays

end
-- ==== Proof.Region3.lean ====
/-
  Launch 3 of the kernel program: a one-row bias added to every row of its first operand, then the positive part, computed in
  ten blocks of 5000 rows. Point `t` reads rows `5000·t … 5000·t + 4999` of the first operand and the one bias row, and
  writes the same rows of the output; the ten blocks tile the output.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One block: if `x0` holds rows `5000·T …` of `X` and `x1` holds the bias row `B`, what the body stores at `(p, q)` is
    the whole function's entry at row `5000·T + p`, column `q`. -/
theorem block3_eq (X : FVec Ideal S50000x96 .f32) (B : FVec Ideal S1x96 .f32)
    (x0 : Vec Ideal S5000x96 .f32) (x1 : Vec Ideal S1x96 .f32) (T : Nat) (hT : T < 10)
    (hx0 : ∀ (p : Fin 5000) (q : Fin 96), x0 (ix2 p q) = X (ix2 (⟨T * 5000 + p.val, by have := p.isLt; omega⟩ : Fin 50000) q))
    (hx1 : ∀ q : Fin 96, x1 (ix2 (0 : Fin 1) q) = B (ix2 (0 : Fin 1) q)) (p : Fin 5000) (q : Fin 96) :
    out3_2 (F := Ideal) x0 x1 (ix2 p q)
      = Cert.Whole.biasRelu X B (ix2 (⟨T * 5000 + p.val, by have := p.isLt; omega⟩ : Fin 50000) q) := by
  rw [Cert.Whole.biasRelu_apply]
  refine (Body.biasRelu3 x0 x1 p q).trans ?_
  rw [hx0 p q, hx1 q]

/-- What point `t` writes back is block `t` of the whole function of the arrays the launch finds. -/
theorem flushed3 (c : Dev nD) (t : Fin cfg3.N) :
    (dat3 V c).flushed 2 t
      = ((cfg3.win 2).blk t).view.read (Elt Ideal) (Cert.Whole.biasRelu (V c main_v63) (V c main_v64)) := by
  show (cfg3.win 2).cut (grid3.coords t) ((dat3 V c).after 2 t) = _
  rw [after3_2]
  obtain ⟨e00, e01, e10, e11, e20, e21⟩ := idx3 t
  have hT : t.val < 10 := lt_of_lt_of_eq t.isLt N_3
  funext j
  show out3_2 (iblk3 V c 0 t) (iblk3 V c 1 t) j
    = Cert.Whole.biasRelu (V c main_v63) (V c main_v64) (((cfg3.win 2).blk t).view.emb j)
  refine (congrArg (out3_2 (iblk3 V c 0 t) (iblk3 V c 1 t)) (eq_ix2 j)).trans ?_
  refine (block3_eq (V c main_v63) (V c main_v64) (iblk3 V c 0 t) (iblk3 V c 1 t) t.val hT ?_ ?_ (j 0) (j 1)).trans ?_
  · intro p q
    show V c main_v63 (((cfg3.win 0).blk t).view.emb (ix2 p q)) = _
    refine congrArg (V c main_v63) (funext fun a => Fin.ext ?_)
    match a with
    | ⟨0, _⟩ => show win3_0.index t (0 : Fin 2) * 5000 + 1 * p.val = t.val * 5000 + p.val; omega
    | ⟨1, _⟩ => show win3_0.index t (1 : Fin 2) * 96 + 1 * q.val = q.val; omega
  · intro q
    show V c main_v64 (((cfg3.win 1).blk t).view.emb (ix2 (0 : Fin 1) q)) = _
    refine congrArg (V c main_v64) (funext fun a => Fin.ext ?_)
    match a with
    | ⟨0, _⟩ => show win3_1.index t (0 : Fin 2) * 1 + 1 * 0 = 0; omega
    | ⟨1, _⟩ => show win3_1.index t (1 : Fin 2) * 96 + 1 * q.val = q.val; omega
  · refine congrArg (Cert.Whole.biasRelu (V c main_v63) (V c main_v64)) (funext fun a => Fin.ext ?_)
    match a with
    | ⟨0, _⟩ => show t.val * 5000 + (j 0).val = win3_2.index t (0 : Fin 2) * 5000 + 1 * (j 0).val; omega
    | ⟨1, _⟩ => show (j 1).val = win3_2.index t (1 : Fin 2) * 96 + 1 * (j 1).val; omega

/-- An index of the output array is in point `t`'s block iff each coordinate is in the block's range on its axis. -/
theorem mem_blk3 (t : Fin cfg3.N) (i : S50000x96.Idx) :
    i ∈ ((cfg3.win 2).blk t).view.set ↔ ∀ a : Fin 2, win3_2.index t a * S5000x96.size a ≤ (i a).val
      ∧ (i a).val < win3_2.index t a * S5000x96.size a + S5000x96.size a := by
  show i ∈ ((View.whole main_v65).slice (win3_2.rect t)).set ↔ _
  rw [View.set_slice_whole, Rect.mem_set_unit]
  exact Iff.rfl

/-- Every row of the output lies in the block of the point `row / 5000`. -/
theorem cover3 (i : S50000x96.Idx) :
    ∃ t : Fin cfg3.N, (cfg3.win 2).flush t = true ∧ i ∈ ((cfg3.win 2).blk t).view.set := by
  have hi0 : (i 0).val < 50000 := (i 0).isLt
  have hi1 : (i 1).val < 96 := (i 1).isLt
  have hlt : (i 0).val / 5000 < cfg3.N := lt_of_lt_of_eq (by omega : (i 0).val / 5000 < 10) N_3.symm
  obtain ⟨-, -, -, -, e20, e21⟩ := idx3 ⟨(i 0).val / 5000, hlt⟩
  refine ⟨⟨(i 0).val / 5000, hlt⟩, flush3_2 _, ?_⟩
  rw [mem_blk3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win3_2.index ⟨(i 0).val / 5000, hlt⟩ (1 : Fin 2) * 96 ≤ (i 1).val
      ∧ (i 1).val < win3_2.index ⟨(i 0).val / 5000, hlt⟩ (1 : Fin 2) * 96 + 96
    rw [e21]; omega

/-- After the launch its output array is the bias added to every row of the array it found, then the positive part. -/
theorem array3 (c : Dev nD) :
    (dat3 V c).arrAt 2 cfg3.N = Cert.Whole.biasRelu (V c main_v63) (V c main_v64) :=
  (dat3 V c).arrAt_eq_of_cover 2 _ (fun t _ => flushed3 V c t) (cover3)

end Cert.KernelIdeal.Arrays

end
-- ==== Proof.Chain2.lean ====
/-
  The contents of the kernel program's buffers, boundary by boundary: layer 2.

  The host lines before the product launch cut this layer's weight matrix and bias vector out of the stacked parameters;
  the product launch multiplies the previous layer's output by the weight matrix; the host lines after it aggregate over
  the edges; the bias launch adds the bias and takes the positive part. Each buffer holds the reference's corresponding
  stage of the arguments.
-/
import proofs.«160234_j8280696947369_1_alg».proof.Proof.Chain1
import proofs.«160234_j8280696947369_1_alg».proof.Proof.Region2
import proofs.«160234_j8280696947369_1_alg».proof.Proof.Region3
import proofs.«160234_j8280696947369_1_alg».proof.Proof.LibRowLayouts

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- This layer's weight matrix, cut out of the stack. -/
theorem weight7 : W7 m ρ c (Proc.devRef .tc main_v47) = Cert.ReferenceIdeal.ReadP.val_main_v49 (F := Ideal) (m ((c : Thread nD τ).loc main_arg5)) := by
  show StableHlo.after hostOps2 (W6 m ρ c) (Proc.devRef .tc main_v47) = _
  dsimp only [hostOps2]
  after_results_simp
  rw [keepTo6 m ρ c (b := main_arg5) (by decide), arg3 m ρ c (b := main_arg5) (by decide)]
  rfl

/-- This layer's bias vector, cut out of the stack. -/
theorem biasvec7 : W7 m ρ c (Proc.devRef .tc main_v49) = Cert.ReferenceIdeal.ReadP.val_main_v51 (F := Ideal) (m ((c : Thread nD τ).loc main_arg6)) := by
  show StableHlo.after hostOps2 (W6 m ρ c) (Proc.devRef .tc main_v49) = _
  dsimp only [hostOps2]
  after_results_simp
  rw [keepTo6 m ρ c (b := main_arg6) (by decide), arg3 m ρ c (b := main_arg6) (by decide)]
  rfl

/-- The previous layer's output is not written by these host lines. -/
theorem feat7 : W7 m ρ c (Proc.devRef .tc main_v45) = Cert.ReferenceIdeal.ReadP.val_main_v47 (F := Ideal) (m ((c : Thread nD τ).loc main_arg0)) (m ((c : Thread nD τ).loc main_arg1)) (m ((c : Thread nD τ).loc main_arg3)) (m ((c : Thread nD τ).loc main_arg4)) := by
  refine Eq.trans ?_ (feat6 m ρ c)
  show StableHlo.after hostOps2 (W6 m ρ c) (Proc.devRef .tc main_v45) = _
  dsimp only [hostOps2]
  after_results_simp

/-- After the product launch: the transformed features, the reference's matrix product of this layer. -/
theorem prod8 : W8 m ρ c (Proc.devRef .tc main_v50) = Cert.ReferenceIdeal.ReadP.val_main_v52 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W8_arr m ρ c 2).trans ?_
  refine (Arrays.array2 (V7 m ρ) c).trans ?_
  show Cert.Whole.productH (W7 m ρ c (Proc.devRef .tc main_v45)) (W7 m ρ c (Proc.devRef .tc main_v47)) = _
  rw [feat7, weight7]
  rfl

/-- The bias vector is not an array of the product launch. -/
theorem biasvec8 : W8 m ρ c (Proc.devRef .tc main_v49) = Cert.ReferenceIdeal.ReadP.val_main_v51 (F := Ideal) (m ((c : Thread nD τ).loc main_arg6)) :=
  (W8_of_ne m ρ c main_v49 (by decide)).trans (biasvec7 m ρ c)

/-- The neighbour aggregation of the transformed features: every edge's source row, weighted, added into its
    destination row — the reference's same stage. -/
theorem agg9 : W9 m ρ c (Proc.devRef .tc main_v63) = Cert.ReferenceIdeal.ReadP.val_main_v65 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps3 (W8 m ρ c) (Proc.devRef .tc main_v63) = _
  dsimp only [hostOps3]
  after_results_simp
  rw [keepTo8 m ρ c (b := main_v5) (by decide), keepTo8 m ρ c (b := main_v6) (by decide), keepTo8 m ρ c (b := main_v29) (by decide),
    src3, dst3, norm3, prod8]
  rfl

/-- The layer's bias as one row: the reshape of the bias vector is the reference's broadcast of it into one row. -/
theorem bias9 : W9 m ρ c (Proc.devRef .tc main_v64) = Cert.ReferenceIdeal.ReadP.val_main_v66 (F := Ideal) (m ((c : Thread nD τ).loc main_arg6)) := by
  show StableHlo.after hostOps3 (W8 m ρ c) (Proc.devRef .tc main_v64) = _
  dsimp only [hostOps3]
  after_results_simp
  rw [biasvec8]
  exact Cert.LibRowLayouts.rowCast_eq _ _ _

/-- After the bias launch: the layer's output, the reference's positive part of the aggregation plus the bias. -/
theorem feat10 : W10 m ρ c (Proc.devRef .tc main_v65) = Cert.ReferenceIdeal.ReadP.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W10_arr m ρ c 2).trans ?_
  refine (Arrays.array3 (V9 m ρ) c).trans ?_
  show Cert.Whole.biasRelu (W9 m ρ c (Proc.devRef .tc main_v63)) (W9 m ρ c (Proc.devRef .tc main_v64)) = _
  rw [agg9, bias9]
  rfl

end Cert.KernelIdeal.Chain

end
-- ==== Proof.Region4.lean ====
/-
  Launch 4 of the kernel program: the matrix product of all 50000 rows of its first operand with the weight matrix, computed
  in ten blocks of 5000 rows. Point `t` of the grid reads rows `5000·t … 5000·t + 4999` of the first operand and the whole
  weight matrix, and writes the same rows of the output; the ten blocks tile the output, so after the launch the output
  array is the whole product, whatever it held before.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the weight matrix stays. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- One block: if `x0` holds rows `5000·T …` of `X` and `x1` holds `Wm`, what the body stores at `(p, q)` is the whole
    product's entry at row `5000·T + p`, column `q`: both are the same sum over the contracted axis. -/
theorem block4_eq (X : FVec Ideal S50000x96 .f32) (Wm : FVec Ideal S96x96 .f32)
    (x0 : Vec Ideal S5000x96 .f32) (x1 : Vec Ideal S96x96 .f32) (T : Nat) (hT : T < 10)
    (hx0 : ∀ (p : Fin 5000) (k : Fin 96), x0 (ix2 p k) = X (ix2 (⟨T * 5000 + p.val, by have := p.isLt; omega⟩ : Fin 50000) k))
    (hx1 : ∀ (k : Fin 96) (q : Fin 96), x1 (ix2 k q) = Wm (ix2 k q)) (p : Fin 5000) (q : Fin 96) :
    out4_2 (F := Ideal) x0 x1 (ix2 p q)
      = Cert.Whole.productH X Wm (ix2 (⟨T * 5000 + p.val, by have := p.isLt; omega⟩ : Fin 50000) q) := by
  rw [Cert.Whole.productH_apply]
  refine (Body.product4 x0 x1 p q).trans (Finset.sum_congr rfl fun k _ => ?_)
  rw [hx0 p k, hx1 k q]

/-- What point `t` writes back is block `t` of the whole product of the arrays the launch finds. -/
theorem flushed4 (c : Dev nD) (t : Fin cfg4.N) :
    (dat4 V c).flushed 2 t
      = ((cfg4.win 2).blk t).view.read (Elt Ideal) (Cert.Whole.productH (V c main_v65) (V c main_v67)) := by
  show (cfg4.win 2).cut (grid4.coords t) ((dat4 V c).after 2 t) = _
  rw [after4_2]
  obtain ⟨e00, e01, e10, e11, e20, e21⟩ := idx4 t
  have hT : t.val < 10 := lt_of_lt_of_eq t.isLt N_4
  funext j
  show out4_2 (iblk4 V c 0 t) (iblk4 V c 1 t) j
    = Cert.Whole.productH (V c main_v65) (V c main_v67) (((cfg4.win 2).blk t).view.emb j)
  refine (congrArg (out4_2 (iblk4 V c 0 t) (iblk4 V c 1 t)) (eq_ix2 j)).trans ?_
  refine (block4_eq (V c main_v65) (V c main_v67) (iblk4 V c 0 t) (iblk4 V c 1 t) t.val hT ?_ ?_ (j 0) (j 1)).trans ?_
  · intro p k
    show V c main_v65 (((cfg4.win 0).blk t).view.emb (ix2 p k)) = _
    refine congrArg (V c main_v65) (funext fun a => Fin.ext ?_)
    match a with
    | ⟨0, _⟩ => show win4_0.index t (0 : Fin 2) * 5000 + 1 * p.val = t.val * 5000 + p.val; omega
    | ⟨1, _⟩ => show win4_0.index t (1 : Fin 2) * 96 + 1 * k.val = k.val; omega
  · intro k q
    show V c main_v67 (((cfg4.win 1).blk t).view.emb (ix2 k q)) = _
    refine congrArg (V c main_v67) (funext fun a => Fin.ext ?_)
    match a with
    | ⟨0, _⟩ => show win4_1.index t (0 : Fin 2) * 96 + 1 * k.val = k.val; omega
    | ⟨1, _⟩ => show win4_1.index t (1 : Fin 2) * 96 + 1 * q.val = q.val; omega
  · refine congrArg (Cert.Whole.productH (V c main_v65) (V c main_v67)) (funext fun a => Fin.ext ?_)
    match a with
    | ⟨0, _⟩ => show t.val * 5000 + (j 0).val = win4_2.index t (0 : Fin 2) * 5000 + 1 * (j 0).val; omega
    | ⟨1, _⟩ => show (j 1).val = win4_2.index t (1 : Fin 2) * 96 + 1 * (j 1).val; omega

/-- An index of the output array is in point `t`'s block iff each coordinate is in the block's range on its axis. -/
theorem mem_blk4 (t : Fin cfg4.N) (i : S50000x96.Idx) :
    i ∈ ((cfg4.win 2).blk t).view.set ↔ ∀ a : Fin 2, win4_2.index t a * S5000x96.size a ≤ (i a).val
      ∧ (i a).val < win4_2.index t a * S5000x96.size a + S5000x96.size a := by
  show i ∈ ((View.whole main_v70).slice (win4_2.rect t)).set ↔ _
  rw [View.set_slice_whole, Rect.mem_set_unit]
  exact Iff.rfl

/-- Every row of the output lies in the block of the point `row / 5000`. -/
theorem cover4 (i : S50000x96.Idx) :
    ∃ t : Fin cfg4.N, (cfg4.win 2).flush t = true ∧ i ∈ ((cfg4.win 2).blk t).view.set := by
  have hi0 : (i 0).val < 50000 := (i 0).isLt
  have hi1 : (i 1).val < 96 := (i 1).isLt
  have hlt : (i 0).val / 5000 < cfg4.N := lt_of_lt_of_eq (by omega : (i 0).val / 5000 < 10) N_4.symm
  obtain ⟨-, -, -, -, e20, e21⟩ := idx4 ⟨(i 0).val / 5000, hlt⟩
  refine ⟨⟨(i 0).val / 5000, hlt⟩, flush4_2 _, ?_⟩
  rw [mem_blk4]
  intro a
  match a with
  | ⟨0, _⟩ =>
    show win4_2.index ⟨(i 0).val / 5000, hlt⟩ (0 : Fin 2) * 5000 ≤ (i 0).val
      ∧ (i 0).val < win4_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win4_2.index ⟨(i 0).val / 5000, hlt⟩ (1 : Fin 2) * 96 ≤ (i 1).val
      ∧ (i 1).val < win4_2.index ⟨(i 0).val / 5000, hlt⟩ (1 : Fin 2) * 96 + 96
    rw [e21]; omega

/-- After the launch its output array is the whole product of the two arrays it found. -/
theorem array4 (c : Dev nD) :
    (dat4 V c).arrAt 2 cfg4.N = Cert.Whole.productH (V c main_v65) (V c main_v67) :=
  (dat4 V c).arrAt_eq_of_cover 2 _ (fun t _ => flushed4 V c t) (cover4)

end Cert.KernelIdeal.Arrays

end
-- ==== Proof.Region5.lean ====
/-
  Launch 5 of the kernel program: a one-row bias added to every row of its first operand, then the positive part, computed in
  ten blocks of 5000 rows. Point `t` reads rows `5000·t … 5000·t + 4999` of the first operand and the one bias row, and
  writes the same rows of the output; the ten blocks tile the output.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the bias row stays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- One block: if `x0` holds rows `5000·T …` of `X` and `x1` holds the bias row `B`, what the body stores at `(p, q)` is
    the whole function's entry at row `5000·T + p`, column `q`. -/
theorem block5_eq (X : FVec Ideal S50000x96 .f32) (B : FVec Ideal S1x96 .f32)
    (x0 : Vec Ideal S5000x96 .f32) (x1 : Vec Ideal S1x96 .f32) (T : Nat) (hT : T < 10)
    (hx0 : ∀ (p : Fin 5000) (q : Fin 96), x0 (ix2 p q) = X (ix2 (⟨T * 5000 + p.val, by have := p.isLt; omega⟩ : Fin 50000) q))
    (hx1 : ∀ q : Fin 96, x1 (ix2 (0 : Fin 1) q) = B (ix2 (0 : Fin 1) q)) (p : Fin 5000) (q : Fin 96) :
    out5_2 (F := Ideal) x0 x1 (ix2 p q)
      = Cert.Whole.biasRelu X B (ix2 (⟨T * 5000 + p.val, by have := p.isLt; omega⟩ : Fin 50000) q) := by
  rw [Cert.Whole.biasRelu_apply]
  refine (Body.biasRelu5 x0 x1 p q).trans ?_
  rw [hx0 p q, hx1 q]

/-- What point `t` writes back is block `t` of the whole function of the arrays the launch finds. -/
theorem flushed5 (c : Dev nD) (t : Fin cfg5.N) :
    (dat5 V c).flushed 2 t
      = ((cfg5.win 2).blk t).view.read (Elt Ideal) (Cert.Whole.biasRelu (V c main_v83) (V c main_v84)) := by
  show (cfg5.win 2).cut (grid5.coords t) ((dat5 V c).after 2 t) = _
  rw [after5_2]
  obtain ⟨e00, e01, e10, e11, e20, e21⟩ := idx5 t
  have hT : t.val < 10 := lt_of_lt_of_eq t.isLt N_5
  funext j
  show out5_2 (iblk5 V c 0 t) (iblk5 V c 1 t) j
    = Cert.Whole.biasRelu (V c main_v83) (V c main_v84) (((cfg5.win 2).blk t).view.emb j)
  refine (congrArg (out5_2 (iblk5 V c 0 t) (iblk5 V c 1 t)) (eq_ix2 j)).trans ?_
  refine (block5_eq (V c main_v83) (V c main_v84) (iblk5 V c 0 t) (iblk5 V c 1 t) t.val hT ?_ ?_ (j 0) (j 1)).trans ?_
  · intro p q
    show V c main_v83 (((cfg5.win 0).blk t).view.emb (ix2 p q)) = _
    refine congrArg (V c main_v83) (funext fun a => Fin.ext ?_)
    match a with
    | ⟨0, _⟩ => show win5_0.index t (0 : Fin 2) * 5000 + 1 * p.val = t.val * 5000 + p.val; omega
    | ⟨1, _⟩ => show win5_0.index t (1 : Fin 2) * 96 + 1 * q.val = q.val; omega
  · intro q
    show V c main_v84 (((cfg5.win 1).blk t).view.emb (ix2 (0 : Fin 1) q)) = _
    refine congrArg (V c main_v84) (funext fun a => Fin.ext ?_)
    match a with
    | ⟨0, _⟩ => show win5_1.index t (0 : Fin 2) * 1 + 1 * 0 = 0; omega
    | ⟨1, _⟩ => show win5_1.index t (1 : Fin 2) * 96 + 1 * q.val = q.val; omega
  · refine congrArg (Cert.Whole.biasRelu (V c main_v83) (V c main_v84)) (funext fun a => Fin.ext ?_)
    match a with
    | ⟨0, _⟩ => show t.val * 5000 + (j 0).val = win5_2.index t (0 : Fin 2) * 5000 + 1 * (j 0).val; omega
    | ⟨1, _⟩ => show (j 1).val = win5_2.index t (1 : Fin 2) * 96 + 1 * (j 1).val; omega

/-- An index of the output array is in point `t`'s block iff each coordinate is in the block's range on its axis. -/
theorem mem_blk5 (t : Fin cfg5.N) (i : S50000x96.Idx) :
    i ∈ ((cfg5.win 2).blk t).view.set ↔ ∀ a : Fin 2, win5_2.index t a * S5000x96.size a ≤ (i a).val
      ∧ (i a).val < win5_2.index t a * S5000x96.size a + S5000x96.size a := by
  show i ∈ ((View.whole main_v85).slice (win5_2.rect t)).set ↔ _
  rw [View.set_slice_whole, Rect.mem_set_unit]
  exact Iff.rfl

/-- Every row of the output lies in the block of the point `row / 5000`. -/
theorem cover5 (i : S50000x96.Idx) :
    ∃ t : Fin cfg5.N, (cfg5.win 2).flush t = true ∧ i ∈ ((cfg5.win 2).blk t).view.set := by
  have hi0 : (i 0).val < 50000 := (i 0).isLt
  have hi1 : (i 1).val < 96 := (i 1).isLt
  have hlt : (i 0).val / 5000 < cfg5.N := lt_of_lt_of_eq (by omega : (i 0).val / 5000 < 10) N_5.symm
  obtain ⟨-, -, -, -, e20, e21⟩ := idx5 ⟨(i 0).val / 5000, hlt⟩
  refine ⟨⟨(i 0).val / 5000, hlt⟩, flush5_2 _, ?_⟩
  rw [mem_blk5]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win5_2.index ⟨(i 0).val / 5000, hlt⟩ (1 : Fin 2) * 96 ≤ (i 1).val
      ∧ (i 1).val < win5_2.index ⟨(i 0).val / 5000, hlt⟩ (1 : Fin 2) * 96 + 96
    rw [e21]; omega

/-- After the launch its output array is the bias added to every row of the array it found, then the positive part. -/
theorem array5 (c : Dev nD) :
    (dat5 V c).arrAt 2 cfg5.N = Cert.Whole.biasRelu (V c main_v83) (V c main_v84) :=
  (dat5 V c).arrAt_eq_of_cover 2 _ (fun t _ => flushed5 V c t) (cover5)

end Cert.KernelIdeal.Arrays

end
-- ==== Proof.Chain3.lean ====
/-
  The contents of the kernel program's buffers, boundary by boundary: layer 3.

  The host lines before the product launch cut this layer's weight matrix and bias vector out of the stacked parameters;
  the product launch multiplies the previous layer's output by the weight matrix; the host lines after it aggregate over
  the edges; the bias launch adds the bias and takes the positive part. Each buffer holds the reference's corresponding
  stage of the arguments.
-/
import proofs.«160234_j8280696947369_1_alg».proof.Proof.Chain2
import proofs.«160234_j8280696947369_1_alg».proof.Proof.Region4
import proofs.«160234_j8280696947369_1_alg».proof.Proof.Region5
import proofs.«160234_j8280696947369_1_alg».proof.Proof.LibRowLayouts

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- This layer's weight matrix, cut out of the stack. -/
theorem weight11 : W11 m ρ c (Proc.devRef .tc main_v67) = Cert.ReferenceIdeal.ReadP.val_main_v71 (F := Ideal) (m ((c : Thread nD τ).loc main_arg5)) := by
  show StableHlo.after hostOps4 (W10 m ρ c) (Proc.devRef .tc main_v67) = _
  dsimp only [hostOps4]
  after_results_simp
  rw [keepTo10 m ρ c (b := main_arg5) (by decide), arg3 m ρ c (b := main_arg5) (by decide)]
  rfl

/-- This layer's bias vector, cut out of the stack. -/
theorem biasvec11 : W11 m ρ c (Proc.devRef .tc main_v69) = Cert.ReferenceIdeal.ReadP.val_main_v73 (F := Ideal) (m ((c : Thread nD τ).loc main_arg6)) := by
  show StableHlo.after hostOps4 (W10 m ρ c) (Proc.devRef .tc main_v69) = _
  dsimp only [hostOps4]
  after_results_simp
  rw [keepTo10 m ρ c (b := main_arg6) (by decide), arg3 m ρ c (b := main_arg6) (by decide)]
  rfl

/-- The previous layer's output is not written by these host lines. -/
theorem feat11 : W11 m ρ c (Proc.devRef .tc main_v65) = Cert.ReferenceIdeal.ReadP.val_main_v69 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine Eq.trans ?_ (feat10 m ρ c)
  show StableHlo.after hostOps4 (W10 m ρ c) (Proc.devRef .tc main_v65) = _
  dsimp only [hostOps4]
  after_results_simp

/-- After the product launch: the transformed features, the reference's matrix product of this layer. -/
theorem prod12 : W12 m ρ c (Proc.devRef .tc main_v70) = Cert.ReferenceIdeal.ReadP.val_main_v74 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W12_arr m ρ c 2).trans ?_
  refine (Arrays.array4 (V11 m ρ) c).trans ?_
  show Cert.Whole.productH (W11 m ρ c (Proc.devRef .tc main_v65)) (W11 m ρ c (Proc.devRef .tc main_v67)) = _
  rw [feat11, weight11]
  rfl

/-- The bias vector is not an array of the product launch. -/
theorem biasvec12 : W12 m ρ c (Proc.devRef .tc main_v69) = Cert.ReferenceIdeal.ReadP.val_main_v73 (F := Ideal) (m ((c : Thread nD τ).loc main_arg6)) :=
  (W12_of_ne m ρ c main_v69 (by decide)).trans (biasvec11 m ρ c)

/-- The neighbour aggregation of the transformed features: every edge's source row, weighted, added into its
    destination row — the reference's same stage. -/
theorem agg13 : W13 m ρ c (Proc.devRef .tc main_v83) = Cert.ReferenceIdeal.ReadP.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps5 (W12 m ρ c) (Proc.devRef .tc main_v83) = _
  dsimp only [hostOps5]
  after_results_simp
  rw [keepTo12 m ρ c (b := main_v5) (by decide), keepTo12 m ρ c (b := main_v6) (by decide), keepTo12 m ρ c (b := main_v29) (by decide),
    src3, dst3, norm3, prod12]
  rfl

/-- The layer's bias as one row: the reshape of the bias vector is the reference's broadcast of it into one row. -/
theorem bias13 : W13 m ρ c (Proc.devRef .tc main_v84) = Cert.ReferenceIdeal.ReadP.val_main_v88 (F := Ideal) (m ((c : Thread nD τ).loc main_arg6)) := by
  show StableHlo.after hostOps5 (W12 m ρ c) (Proc.devRef .tc main_v84) = _
  dsimp only [hostOps5]
  after_results_simp
  rw [biasvec12]
  exact Cert.LibRowLayouts.rowCast_eq _ _ _

/-- After the bias launch: the layer's output, the reference's positive part of the aggregation plus the bias. -/
theorem feat14 : W14 m ρ c (Proc.devRef .tc main_v85) = Cert.ReferenceIdeal.ReadP.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W14_arr m ρ c 2).trans ?_
  refine (Arrays.array5 (V13 m ρ) c).trans ?_
  show Cert.Whole.biasRelu (W13 m ρ c (Proc.devRef .tc main_v83)) (W13 m ρ c (Proc.devRef .tc main_v84)) = _
  rw [agg13, bias13]
  rfl

end Cert.KernelIdeal.Chain

end
-- ==== Proof.Region6.lean ====
/-
  Launch 6 of the kernel program: the matrix product of all 50000 rows of its first operand with the weight matrix, computed
  in ten blocks of 5000 rows. Point `t` of the grid reads rows `5000·t … 5000·t + 4999` of the first operand and the whole
  weight matrix, and writes the same rows of the output; the ten blocks tile the output, so after the launch the output
  array is the whole product, whatever it held before.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the weight matrix stays. -/
theorem idx6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 :=
  (by decide +kernel : ∀ t : Fin grid6.N, _)

/-- One block: if `x0` holds rows `5000·T …` of `X` and `x1` holds `Wm`, what the body stores at `(p, q)` is the whole
    product's entry at row `5000·T + p`, column `q`: both are the same sum over the contracted axis. -/
theorem block6_eq (X : FVec Ideal S50000x96 .f32) (Wm : FVec Ideal S96x96 .f32)
    (x0 : Vec Ideal S5000x96 .f32) (x1 : Vec Ideal S96x96 .f32) (T : Nat) (hT : T < 10)
    (hx0 : ∀ (p : Fin 5000) (k : Fin 96), x0 (ix2 p k) = X (ix2 (⟨T * 5000 + p.val, by have := p.isLt; omega⟩ : Fin 50000) k))
    (hx1 : ∀ (k : Fin 96) (q : Fin 96), x1 (ix2 k q) = Wm (ix2 k q)) (p : Fin 5000) (q : Fin 96) :
    out6_2 (F := Ideal) x0 x1 (ix2 p q)
      = Cert.Whole.productH X Wm (ix2 (⟨T * 5000 + p.val, by have := p.isLt; omega⟩ : Fin 50000) q) := by
  rw [Cert.Whole.productH_apply]
  refine (Body.product6 x0 x1 p q).trans (Finset.sum_congr rfl fun k _ => ?_)
  rw [hx0 p k, hx1 k q]

/-- What point `t` writes back is block `t` of the whole product of the arrays the launch finds. -/
theorem flushed6 (c : Dev nD) (t : Fin cfg6.N) :
    (dat6 V c).flushed 2 t
      = ((cfg6.win 2).blk t).view.read (Elt Ideal) (Cert.Whole.productH (V c main_v85) (V c main_v87)) := by
  show (cfg6.win 2).cut (grid6.coords t) ((dat6 V c).after 2 t) = _
  rw [after6_2]
  obtain ⟨e00, e01, e10, e11, e20, e21⟩ := idx6 t
  have hT : t.val < 10 := lt_of_lt_of_eq t.isLt N_6
  funext j
  show out6_2 (iblk6 V c 0 t) (iblk6 V c 1 t) j
    = Cert.Whole.productH (V c main_v85) (V c main_v87) (((cfg6.win 2).blk t).view.emb j)
  refine (congrArg (out6_2 (iblk6 V c 0 t) (iblk6 V c 1 t)) (eq_ix2 j)).trans ?_
  refine (block6_eq (V c main_v85) (V c main_v87) (iblk6 V c 0 t) (iblk6 V c 1 t) t.val hT ?_ ?_ (j 0) (j 1)).trans ?_
  · intro p k
    show V c main_v85 (((cfg6.win 0).blk t).view.emb (ix2 p k)) = _
    refine congrArg (V c main_v85) (funext fun a => Fin.ext ?_)
    match a with
    | ⟨0, _⟩ => show win6_0.index t (0 : Fin 2) * 5000 + 1 * p.val = t.val * 5000 + p.val; omega
    | ⟨1, _⟩ => show win6_0.index t (1 : Fin 2) * 96 + 1 * k.val = k.val; omega
  · intro k q
    show V c main_v87 (((cfg6.win 1).blk t).view.emb (ix2 k q)) = _
    refine congrArg (V c main_v87) (funext fun a => Fin.ext ?_)
    match a with
    | ⟨0, _⟩ => show win6_1.index t (0 : Fin 2) * 96 + 1 * k.val = k.val; omega
    | ⟨1, _⟩ => show win6_1.index t (1 : Fin 2) * 96 + 1 * q.val = q.val; omega
  · refine congrArg (Cert.Whole.productH (V c main_v85) (V c main_v87)) (funext fun a => Fin.ext ?_)
    match a with
    | ⟨0, _⟩ => show t.val * 5000 + (j 0).val = win6_2.index t (0 : Fin 2) * 5000 + 1 * (j 0).val; omega
    | ⟨1, _⟩ => show (j 1).val = win6_2.index t (1 : Fin 2) * 96 + 1 * (j 1).val; omega

/-- An index of the output array is in point `t`'s block iff each coordinate is in the block's range on its axis. -/
theorem mem_blk6 (t : Fin cfg6.N) (i : S50000x96.Idx) :
    i ∈ ((cfg6.win 2).blk t).view.set ↔ ∀ a : Fin 2, win6_2.index t a * S5000x96.size a ≤ (i a).val
      ∧ (i a).val < win6_2.index t a * S5000x96.size a + S5000x96.size a := by
  show i ∈ ((View.whole main_v90).slice (win6_2.rect t)).set ↔ _
  rw [View.set_slice_whole, Rect.mem_set_unit]
  exact Iff.rfl

/-- Every row of the output lies in the block of the point `row / 5000`. -/
theorem cover6 (i : S50000x96.Idx) :
    ∃ t : Fin cfg6.N, (cfg6.win 2).flush t = true ∧ i ∈ ((cfg6.win 2).blk t).view.set := by
  have hi0 : (i 0).val < 50000 := (i 0).isLt
  have hi1 : (i 1).val < 96 := (i 1).isLt
  have hlt : (i 0).val / 5000 < cfg6.N := lt_of_lt_of_eq (by omega : (i 0).val / 5000 < 10) N_6.symm
  obtain ⟨-, -, -, -, e20, e21⟩ := idx6 ⟨(i 0).val / 5000, hlt⟩
  refine ⟨⟨(i 0).val / 5000, hlt⟩, flush6_2 _, ?_⟩
  rw [mem_blk6]
  intro a
  match a with
  | ⟨0, _⟩ =>
    show win6_2.index ⟨(i 0).val / 5000, hlt⟩ (0 : Fin 2) * 5000 ≤ (i 0).val
      ∧ (i 0).val < win6_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win6_2.index ⟨(i 0).val / 5000, hlt⟩ (1 : Fin 2) * 96 ≤ (i 1).val
      ∧ (i 1).val < win6_2.index ⟨(i 0).val / 5000, hlt⟩ (1 : Fin 2) * 96 + 96
    rw [e21]; omega

/-- After the launch its output array is the whole product of the two arrays it found. -/
theorem array6 (c : Dev nD) :
    (dat6 V c).arrAt 2 cfg6.N = Cert.Whole.productH (V c main_v85) (V c main_v87) :=
  (dat6 V c).arrAt_eq_of_cover 2 _ (fun t _ => flushed6 V c t) (cover6)

end Cert.KernelIdeal.Arrays

end
-- ==== Proof.Region7.lean ====
/-
  Launch 7 of the kernel program: a one-row bias added to every row of its first operand, then the positive part, computed in
  ten blocks of 5000 rows. Point `t` reads rows `5000·t … 5000·t + 4999` of the first operand and the one bias row, and
  writes the same rows of the output; the ten blocks tile the output.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps, decided once over the ten grid points: the row operand and the output move with the point
    along the rows, the bias row stays. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- One block: if `x0` holds rows `5000·T …` of `X` and `x1` holds the bias row `B`, what the body stores at `(p, q)` is
    the whole function's entry at row `5000·T + p`, column `q`. -/
theorem block7_eq (X : FVec Ideal S50000x96 .f32) (B : FVec Ideal S1x96 .f32)
    (x0 : Vec Ideal S5000x96 .f32) (x1 : Vec Ideal S1x96 .f32) (T : Nat) (hT : T < 10)
    (hx0 : ∀ (p : Fin 5000) (q : Fin 96), x0 (ix2 p q) = X (ix2 (⟨T * 5000 + p.val, by have := p.isLt; omega⟩ : Fin 50000) q))
    (hx1 : ∀ q : Fin 96, x1 (ix2 (0 : Fin 1) q) = B (ix2 (0 : Fin 1) q)) (p : Fin 5000) (q : Fin 96) :
    out7_2 (F := Ideal) x0 x1 (ix2 p q)
      = Cert.Whole.biasRelu X B (ix2 (⟨T * 5000 + p.val, by have := p.isLt; omega⟩ : Fin 50000) q) := by
  rw [Cert.Whole.biasRelu_apply]
  refine (Body.biasRelu7 x0 x1 p q).trans ?_
  rw [hx0 p q, hx1 q]

/-- What point `t` writes back is block `t` of the whole function of the arrays the launch finds. -/
theorem flushed7 (c : Dev nD) (t : Fin cfg7.N) :
    (dat7 V c).flushed 2 t
      = ((cfg7.win 2).blk t).view.read (Elt Ideal) (Cert.Whole.biasRelu (V c main_v103) (V c main_v104)) := by
  show (cfg7.win 2).cut (grid7.coords t) ((dat7 V c).after 2 t) = _
  rw [after7_2]
  obtain ⟨e00, e01, e10, e11, e20, e21⟩ := idx7 t
  have hT : t.val < 10 := lt_of_lt_of_eq t.isLt N_7
  funext j
  show out7_2 (iblk7 V c 0 t) (iblk7 V c 1 t) j
    = Cert.Whole.biasRelu (V c main_v103) (V c main_v104) (((cfg7.win 2).blk t).view.emb j)
  refine (congrArg (out7_2 (iblk7 V c 0 t) (iblk7 V c 1 t)) (eq_ix2 j)).trans ?_
  refine (block7_eq (V c main_v103) (V c main_v104) (iblk7 V c 0 t) (iblk7 V c 1 t) t.val hT ?_ ?_ (j 0) (j 1)).trans ?_
  · intro p q
    show V c main_v103 (((cfg7.win 0).blk t).view.emb (ix2 p q)) = _
    refine congrArg (V c main_v103) (funext fun a => Fin.ext ?_)
    match a with
    | ⟨0, _⟩ => show win7_0.index t (0 : Fin 2) * 5000 + 1 * p.val = t.val * 5000 + p.val; omega
    | ⟨1, _⟩ => show win7_0.index t (1 : Fin 2) * 96 + 1 * q.val = q.val; omega
  · intro q
    show V c main_v104 (((cfg7.win 1).blk t).view.emb (ix2 (0 : Fin 1) q)) = _
    refine congrArg (V c main_v104) (funext fun a => Fin.ext ?_)
    match a with
    | ⟨0, _⟩ => show win7_1.index t (0 : Fin 2) * 1 + 1 * 0 = 0; omega
    | ⟨1, _⟩ => show win7_1.index t (1 : Fin 2) * 96 + 1 * q.val = q.val; omega
  · refine congrArg (Cert.Whole.biasRelu (V c main_v103) (V c main_v104)) (funext fun a => Fin.ext ?_)
    match a with
    | ⟨0, _⟩ => show t.val * 5000 + (j 0).val = win7_2.index t (0 : Fin 2) * 5000 + 1 * (j 0).val; omega
    | ⟨1, _⟩ => show (j 1).val = win7_2.index t (1 : Fin 2) * 96 + 1 * (j 1).val; omega

/-- An index of the output array is in point `t`'s block iff each coordinate is in the block's range on its axis. -/
theorem mem_blk7 (t : Fin cfg7.N) (i : S50000x96.Idx) :
    i ∈ ((cfg7.win 2).blk t).view.set ↔ ∀ a : Fin 2, win7_2.index t a * S5000x96.size a ≤ (i a).val
      ∧ (i a).val < win7_2.index t a * S5000x96.size a + S5000x96.size a := by
  show i ∈ ((View.whole main_v105).slice (win7_2.rect t)).set ↔ _
  rw [View.set_slice_whole, Rect.mem_set_unit]
  exact Iff.rfl

/-- Every row of the output lies in the block of the point `row / 5000`. -/
theorem cover7 (i : S50000x96.Idx) :
    ∃ t : Fin cfg7.N, (cfg7.win 2).flush t = true ∧ i ∈ ((cfg7.win 2).blk t).view.set := by
  have hi0 : (i 0).val < 50000 := (i 0).isLt
  have hi1 : (i 1).val < 96 := (i 1).isLt
  have hlt : (i 0).val / 5000 < cfg7.N := lt_of_lt_of_eq (by omega : (i 0).val / 5000 < 10) N_7.symm
  obtain ⟨-, -, -, -, e20, e21⟩ := idx7 ⟨(i 0).val / 5000, hlt⟩
  refine ⟨⟨(i 0).val / 5000, hlt⟩, flush7_2 _, ?_⟩
  rw [mem_blk7]
  intro a
  match a with
  | ⟨0, _⟩ =>
    show win7_2.index ⟨(i 0).val / 5000, hlt⟩ (0 : Fin 2) * 5000 ≤ (i 0).val
      ∧ (i 0).val < win7_2.index ⟨(i 0).val / 5000, hlt⟩ (0 : Fin 2) * 5000 + 5000
    rw [e20]; show (i 0).val / 5000 * 5000 ≤ (i 0).val ∧ (i 0).val < (i 0).val / 5000 * 5000 + 5000; omega
  | ⟨1, _⟩ =>
    show win7_2.index ⟨(i 0).val / 5000, hlt⟩ (1 : Fin 2) * 96 ≤ (i 1).val
      ∧ (i 1).val < win7_2.index ⟨(i 0).val / 5000, hlt⟩ (1 : Fin 2) * 96 + 96
    rw [e21]; omega

/-- After the launch its output array is the bias added to every row of the array it found, then the positive part. -/
theorem array7 (c : Dev nD) :
    (dat7 V c).arrAt 2 cfg7.N = Cert.Whole.biasRelu (V c main_v103) (V c main_v104) :=
  (dat7 V c).arrAt_eq_of_cover 2 _ (fun t _ => flushed7 V c t) (cover7)

end Cert.KernelIdeal.Arrays

end
-- ==== Proof.Chain4.lean ====
/-
  The contents of the kernel program's buffers, boundary by boundary: layer 4.

  The host lines before the product launch cut this layer's weight matrix and bias vector out of the stacked parameters;
  the product launch multiplies the previous layer's output by the weight matrix; the host lines after it aggregate over
  the edges; the bias launch adds the bias and takes the positive part. Each buffer holds the reference's corresponding
  stage of the arguments.
-/
import proofs.«160234_j8280696947369_1_alg».proof.Proof.Chain3
import proofs.«160234_j8280696947369_1_alg».proof.Proof.Region6
import proofs.«160234_j8280696947369_1_alg».proof.Proof.Region7
import proofs.«160234_j8280696947369_1_alg».proof.Proof.LibRowLayouts

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- This layer's weight matrix, cut out of the stack. -/
theorem weight15 : W15 m ρ c (Proc.devRef .tc main_v87) = Cert.ReferenceIdeal.ReadP.val_main_v93 (F := Ideal) (m ((c : Thread nD τ).loc main_arg5)) := by
  show StableHlo.after hostOps6 (W14 m ρ c) (Proc.devRef .tc main_v87) = _
  dsimp only [hostOps6]
  after_results_simp
  rw [keepTo14 m ρ c (b := main_arg5) (by decide), arg3 m ρ c (b := main_arg5) (by decide)]
  rfl

/-- This layer's bias vector, cut out of the stack. -/
theorem biasvec15 : W15 m ρ c (Proc.devRef .tc main_v89) = Cert.ReferenceIdeal.ReadP.val_main_v95 (F := Ideal) (m ((c : Thread nD τ).loc main_arg6)) := by
  show StableHlo.after hostOps6 (W14 m ρ c) (Proc.devRef .tc main_v89) = _
  dsimp only [hostOps6]
  after_results_simp
  rw [keepTo14 m ρ c (b := main_arg6) (by decide), arg3 m ρ c (b := main_arg6) (by decide)]
  rfl

/-- The previous layer's output is not written by these host lines. -/
theorem feat15 : W15 m ρ c (Proc.devRef .tc main_v85) = Cert.ReferenceIdeal.ReadP.val_main_v91 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine Eq.trans ?_ (feat14 m ρ c)
  show StableHlo.after hostOps6 (W14 m ρ c) (Proc.devRef .tc main_v85) = _
  dsimp only [hostOps6]
  after_results_simp

/-- After the product launch: the transformed features, the reference's matrix product of this layer. -/
theorem prod16 : W16 m ρ c (Proc.devRef .tc main_v90) = Cert.ReferenceIdeal.ReadP.val_main_v96 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W16_arr m ρ c 2).trans ?_
  refine (Arrays.array6 (V15 m ρ) c).trans ?_
  show Cert.Whole.productH (W15 m ρ c (Proc.devRef .tc main_v85)) (W15 m ρ c (Proc.devRef .tc main_v87)) = _
  rw [feat15, weight15]
  rfl

/-- The bias vector is not an array of the product launch. -/
theorem biasvec16 : W16 m ρ c (Proc.devRef .tc main_v89) = Cert.ReferenceIdeal.ReadP.val_main_v95 (F := Ideal) (m ((c : Thread nD τ).loc main_arg6)) :=
  (W16_of_ne m ρ c main_v89 (by decide)).trans (biasvec15 m ρ c)

/-- The neighbour aggregation of the transformed features: every edge's source row, weighted, added into its
    destination row — the reference's same stage. -/
theorem agg17 : W17 m ρ c (Proc.devRef .tc main_v103) = Cert.ReferenceIdeal.ReadP.val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps7 (W16 m ρ c) (Proc.devRef .tc main_v103) = _
  dsimp only [hostOps7]
  after_results_simp
  rw [keepTo16 m ρ c (b := main_v5) (by decide), keepTo16 m ρ c (b := main_v6) (by decide), keepTo16 m ρ c (b := main_v29) (by decide),
    src3, dst3, norm3, prod16]
  rfl

/-- The layer's bias as one row: the reshape of the bias vector is the reference's broadcast of it into one row. -/
theorem bias17 : W17 m ρ c (Proc.devRef .tc main_v104) = Cert.ReferenceIdeal.ReadP.val_main_v110 (F := Ideal) (m ((c : Thread nD τ).loc main_arg6)) := by
  show StableHlo.after hostOps7 (W16 m ρ c) (Proc.devRef .tc main_v104) = _
  dsimp only [hostOps7]
  after_results_simp
  rw [biasvec16]
  exact Cert.LibRowLayouts.rowCast_eq _ _ _

/-- After the bias launch: the layer's output, the reference's positive part of the aggregation plus the bias. -/
theorem feat18 : W18 m ρ c (Proc.devRef .tc main_v105) = Cert.ReferenceIdeal.ReadP.val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (W18_arr m ρ c 2).trans ?_
  refine (Arrays.array7 (V17 m ρ) c).trans ?_
  show Cert.Whole.biasRelu (W17 m ρ c (Proc.devRef .tc main_v103)) (W17 m ρ c (Proc.devRef .tc main_v104)) = _
  rw [agg17, bias17]
  rfl

end Cert.KernelIdeal.Chain

end
-- ==== Proof.Region8.lean ====
/-
  Launch 8 of the kernel program: the classifier head on the 128 pooled rows, in one grid point that reads every operand whole
  and writes the whole output.
-/
import proofs.«160234_j8280696947369_1_alg».proof.Proof.Gen.KernelIdeal.Frame
import proofs.«160234_j8280696947369_1_alg».proof.Proof.BodyValues
import proofs.«160234_j8280696947369_1_alg».proof.Proof.Whole

set_option maxRecDepth 16384

noncomputable section

open scoped BigOperators

namespace Cert.KernelIdeal.Arrays

open Idealize.ShloMosaic Idealize.ShloMosaic.ValueIdx Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The printed index maps at the one grid point: every window's block is its whole array. -/
theorem idx8 : ∀ t : Fin cfg8.N, win8_0.index t (0 : Fin 2) = 0 ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0 :=
  (by decide +kernel : ∀ t : Fin grid8.N, _)

/-- If the five loaded blocks hold the five arrays, what the body stores at `(g, q)` is the head's entry there. -/
theorem block8_eq (P : FVec Ideal S128x96 .f32) (W1 : FVec Ideal S96x96 .f32) (B1 : FVec Ideal S1x96 .f32)
    (W2 : FVec Ideal S96x10 .f32) (B2 : FVec Ideal S1x10 .f32)
    (x0 : Vec Ideal S128x96 .f32) (x1 : Vec Ideal S96x96 .f32) (x2 : Vec Ideal S1x96 .f32)
    (x3 : Vec Ideal S96x10 .f32) (x4 : Vec Ideal S1x10 .f32)
    (h0 : ∀ (g : Fin 128) (k : Fin 96), x0 (ix2 g k) = P (ix2 g k))
    (h1 : ∀ (k' k : Fin 96), x1 (ix2 k' k) = W1 (ix2 k' k))
    (h2 : ∀ k : Fin 96, x2 (ix2 (0 : Fin 1) k) = B1 (ix2 (0 : Fin 1) k))
    (h3 : ∀ (k : Fin 96) (q : Fin 10), x3 (ix2 k q) = W2 (ix2 k q))
    (h4 : ∀ q : Fin 10, x4 (ix2 (0 : Fin 1) q) = B2 (ix2 (0 : Fin 1) q)) (g : Fin 128) (q : Fin 10) :
    out8_5 (F := Ideal) x0 x1 x2 x3 x4 (ix2 g q) = Cert.Whole.head P W1 B1 W2 B2 (ix2 g q) := by
  rw [Cert.Whole.head_apply]
  refine (Body.head8 x0 x1 x2 x3 x4 g q).trans ?_
  rw [h4 q]
  refine congrArg (· + B2 (ix2 (0 : Fin 1) q)) (Finset.sum_congr rfl fun k _ => ?_)
  rw [h3 k q]
  refine congrArg (· * W2 (ix2 k q)) ?_
  unfold Body.hidden Cert.Whole.hidden
  rw [h2 k]
  refine congrArg (max · 0) (congrArg (· + B1 (ix2 (0 : Fin 1) k)) (Finset.sum_congr rfl fun k' _ => ?_))
  rw [h0 g k', h1 k' k]

/-- What the one point writes back is the head of the arrays the launch finds. -/
theorem flushed8 (c : Dev nD) (t : Fin cfg8.N) :
    (dat8 V c).flushed 5 t = ((cfg8.win 5).blk t).view.read (Elt Ideal)
      (Cert.Whole.head (V c main_v116) (V c main_arg7) (V c main_v117) (V c main_arg9) (V c main_v118)) := by
  show (cfg8.win 5).cut (grid8.coords t) ((dat8 V c).after 5 t) = _
  rw [after8_5]
  obtain ⟨e00, e01, e10, e11, e20, e21, e30, e31, e40, e41, e50, e51⟩ := idx8 t
  funext j
  show out8_5 (iblk8 V c 0 t) (iblk8 V c 1 t) (iblk8 V c 2 t) (iblk8 V c 3 t) (iblk8 V c 4 t) j
    = Cert.Whole.head (V c main_v116) (V c main_arg7) (V c main_v117) (V c main_arg9) (V c main_v118)
        (((cfg8.win 5).blk t).view.emb j)
  refine (congrArg (out8_5 (iblk8 V c 0 t) (iblk8 V c 1 t) (iblk8 V c 2 t) (iblk8 V c 3 t) (iblk8 V c 4 t)) (eq_ix2 j)).trans ?_
  refine (block8_eq (V c main_v116) (V c main_arg7) (V c main_v117) (V c main_arg9) (V c main_v118)
    (iblk8 V c 0 t) (iblk8 V c 1 t) (iblk8 V c 2 t) (iblk8 V c 3 t) (iblk8 V c 4 t) ?_ ?_ ?_ ?_ ?_ (j 0) (j 1)).trans ?_
  · intro g k
    show V c main_v116 (((cfg8.win 0).blk t).view.emb (ix2 g k)) = _
    refine congrArg (V c main_v116) (funext fun a => Fin.ext ?_)
    match a with
    | ⟨0, _⟩ => show win8_0.index t (0 : Fin 2) * 128 + 1 * g.val = g.val; omega
    | ⟨1, _⟩ => show win8_0.index t (1 : Fin 2) * 96 + 1 * k.val = k.val; omega
  · intro k' k
    show V c main_arg7 (((cfg8.win 1).blk t).view.emb (ix2 k' k)) = _
    refine congrArg (V c main_arg7) (funext fun a => Fin.ext ?_)
    match a with
    | ⟨0, _⟩ => show win8_1.index t (0 : Fin 2) * 96 + 1 * k'.val = k'.val; omega
    | ⟨1, _⟩ => show win8_1.index t (1 : Fin 2) * 96 + 1 * k.val = k.val; omega
  · intro k
    show V c main_v117 (((cfg8.win 2).blk t).view.emb (ix2 (0 : Fin 1) k)) = _
    refine congrArg (V c main_v117) (funext fun a => Fin.ext ?_)
    match a with
    | ⟨0, _⟩ => show win8_2.index t (0 : Fin 2) * 1 + 1 * 0 = 0; omega
    | ⟨1, _⟩ => show win8_2.index t (1 : Fin 2) * 96 + 1 * k.val = k.val; omega
  · intro k q
    show V c main_arg9 (((cfg8.win 3).blk t).view.emb (ix2 k q)) = _
    refine congrArg (V c main_arg9) (funext fun a => Fin.ext ?_)
    match a with
    | ⟨0, _⟩ => show win8_3.index t (0 : Fin 2) * 96 + 1 * k.val = k.val; omega
    | ⟨1, _⟩ => show win8_3.index t (1 : Fin 2) * 10 + 1 * q.val = q.val; omega
  · intro q
    show V c main_v118 (((cfg8.win 4).blk t).view.emb (ix2 (0 : Fin 1) q)) = _
    refine congrArg (V c main_v118) (funext fun a => Fin.ext ?_)
    match a with
    | ⟨0, _⟩ => show win8_4.index t (0 : Fin 2) * 1 + 1 * 0 = 0; omega
    | ⟨1, _⟩ => show win8_4.index t (1 : Fin 2) * 10 + 1 * q.val = q.val; omega
  · refine congrArg (Cert.Whole.head (V c main_v116) (V c main_arg7) (V c main_v117) (V c main_arg9) (V c main_v118))
      (funext fun a => Fin.ext ?_)
    match a with
    | ⟨0, _⟩ => show (j 0).val = win8_5.index t (0 : Fin 2) * 128 + 1 * (j 0).val; omega
    | ⟨1, _⟩ => show (j 1).val = win8_5.index t (1 : Fin 2) * 10 + 1 * (j 1).val; omega

/-- An index of the output array is in the point's block iff each coordinate is in the block's range on its axis. -/
theorem mem_blk8 (t : Fin cfg8.N) (i : S128x10.Idx) :
    i ∈ ((cfg8.win 5).blk t).view.set ↔ ∀ a : Fin 2, win8_5.index t a * S128x10.size a ≤ (i a).val
      ∧ (i a).val < win8_5.index t a * S128x10.size a + S128x10.size a := by
  show i ∈ ((View.whole main_v119).slice (win8_5.rect t)).set ↔ _
  rw [View.set_slice_whole, Rect.mem_set_unit]
  exact Iff.rfl

/-- The one block is the whole output. -/
theorem cover8 (i : S128x10.Idx) :
    ∃ t : Fin cfg8.N, (cfg8.win 5).flush t = true ∧ i ∈ ((cfg8.win 5).blk t).view.set := by
  have hi0 : (i 0).val < 128 := (i 0).isLt
  have hi1 : (i 1).val < 10 := (i 1).isLt
  obtain ⟨-, -, -, -, -, -, -, -, -, -, e50, e51⟩ := idx8 t8_0
  refine ⟨t8_0, flush8_5 _, ?_⟩
  rw [mem_blk8]
  intro a
  match a with
  | ⟨0, _⟩ =>
    show win8_5.index t8_0 (0 : Fin 2) * 128 ≤ (i 0).val ∧ (i 0).val < win8_5.index t8_0 (0 : Fin 2) * 128 + 128
    rw [e50]; omega
  | ⟨1, _⟩ =>
    show win8_5.index t8_0 (1 : Fin 2) * 10 ≤ (i 1).val ∧ (i 1).val < win8_5.index t8_0 (1 : Fin 2) * 10 + 10
    rw [e51]; omega

/-- After the launch its output array is the head of the five arrays it found. -/
theorem array8 (c : Dev nD) :
    (dat8 V c).arrAt 5 cfg8.N
      = Cert.Whole.head (V c main_v116) (V c main_arg7) (V c main_v117) (V c main_arg9) (V c main_v118) :=
  (dat8 V c).arrAt_eq_of_cover 5 _ (fun t _ => flushed8 V c t) (cover8)

end Cert.KernelIdeal.Arrays

end
-- ==== Proof.ChainHead.lean ====
/-
  The contents of the kernel program's buffers, boundary by boundary: pooling and the classifier head.

  The host lines after the last layer count the nodes of every graph and add up their feature rows (both by a scatter
  over the graph index of every node), divide each sum by its count clipped below at one, and give the two bias vectors
  a leading unit axis. The last launch applies the two-layer head to the pooled rows. Each buffer holds the reference's
  corresponding stage of the arguments; the result buffer holds the reference's result stage.
-/
import proofs.«160234_j8280696947369_1_alg».proof.Proof.Chain4
import proofs.«160234_j8280696947369_1_alg».proof.Proof.Region8
import proofs.«160234_j8280696947369_1_alg».proof.Proof.LibRowLayouts

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-- The number of nodes of every graph. -/
theorem count19 : W19 m ρ c (Proc.devRef .tc main_v109) = Cert.ReferenceIdeal.ReadP.val_main_v117 (F := Ideal) (m ((c : Thread nD τ).loc main_arg2)) := by
  show StableHlo.after hostOps8 (W18 m ρ c) (Proc.devRef .tc main_v109) = _
  dsimp only [hostOps8]
  after_results_simp
  rw [keepTo18 m ρ c (b := main_arg2) (by decide), arg3 m ρ c (b := main_arg2) (by decide)]
  rfl

/-- The sum of the feature rows of every graph's nodes. -/
theorem sum19 : W19 m ρ c (Proc.devRef .tc main_v112) = Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps8 (W18 m ρ c) (Proc.devRef .tc main_v112) = _
  dsimp only [hostOps8]
  after_results_simp
  rw [keepTo18 m ρ c (b := main_arg2) (by decide), arg3 m ρ c (b := main_arg2) (by decide), feat18]
  rfl

/-- The one the count is clipped below at. -/
theorem one19 : W19 m ρ c (Proc.devRef .tc main_cst_21) = Cert.ReferenceIdeal.ReadP.val_main_cst_21 (F := Ideal) := by
  show StableHlo.after hostOps8 (W18 m ρ c) (Proc.devRef .tc main_cst_21) = _
  dsimp only [hostOps8]
  after_results_simp
  rfl

/-- The clip, whatever the buffers hold when it is reached: the maximum of the scalar broadcast and the operand. (The
    call's typed references only transport contents along the identity of types.) -/
theorem clip_result (W' : Valuation τ sig (Elt Ideal)) :
    StableHlo.after hostOps8_1 W' (Proc.devRef .tc main_v113)
      = (maximumf (F := Ideal) (s := S128) (φ := .f32)
          (broadcastInDim S128 ![] bcast_S_S128 (id (W' (Proc.devRef .tc main_cst_21)) : (⟨S_, .f32⟩ : BufTy).Contents (Elt Ideal)))
          (W' (Proc.devRef .tc main_v109)) : (⟨S128, .f32⟩ : BufTy).Contents (Elt Ideal)) := by
  dsimp only [hostOps8_1]
  after_results_simp
  rfl

/-- The count clipped below at one. -/
theorem clip20 : W20 m ρ c (Proc.devRef .tc main_v113) = Cert.ReferenceIdeal.ReadP.val_main_v121 (F := Ideal) (m ((c : Thread nD τ).loc main_arg2)) := by
  refine (clip_result (W19 m ρ c)).trans ?_
  rw [one19, count19]
  rfl

/-- The sums are not written by the clip. -/
theorem sum20 : W20 m ρ c (Proc.devRef .tc main_v112) = Cert.ReferenceIdeal.ReadP.val_main_v120 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine Eq.trans ?_ (sum19 m ρ c)
  show StableHlo.after hostOps8_1 (W19 m ρ c) (Proc.devRef .tc main_v112) = _
  generalize W19 m ρ c = W'
  dsimp only [hostOps8_1]
  after_results_simp

/-- The pooled rows: per graph, the mean of its nodes' feature rows. -/
theorem pooled21 : W21 m ρ c (Proc.devRef .tc main_v116) = Cert.ReferenceIdeal.ReadP.val_main_v124 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show StableHlo.after hostOps8_2 (W20 m ρ c) (Proc.devRef .tc main_v116) = _
  generalize hW : W20 m ρ c = W'
  dsimp only [hostOps8_2]
  after_results_simp
  subst hW
  rw [sum20, clip20]
  rfl

/-- The head's first bias as one row. -/
theorem hbias21 : W21 m ρ c (Proc.devRef .tc main_v117) = Cert.ReferenceIdeal.ReadP.val_main_v126 (F := Ideal) (m ((c : Thread nD τ).loc main_arg8)) := by
  show StableHlo.after hostOps8_2 (StableHlo.after hostOps8_1 (StableHlo.after hostOps8 (W18 m ρ c))) (Proc.devRef .tc main_v117) = _
  dsimp only [hostOps8, hostOps8_1, hostOps8_2]
  after_results_simp
  rw [keepTo18 m ρ c (b := main_arg8) (by decide), arg3 m ρ c (b := main_arg8) (by decide)]
  exact Cert.LibRowLayouts.rowCast_eq _ _ _

/-- The head's second bias as one row. -/
theorem obias21 : W21 m ρ c (Proc.devRef .tc main_v118) = Cert.ReferenceIdeal.ReadP.val_main_v131 (F := Ideal) (m ((c : Thread nD τ).loc main_arg10)) := by
  show StableHlo.after hostOps8_2 (StableHlo.after hostOps8_1 (StableHlo.after hostOps8 (W18 m ρ c))) (Proc.devRef .tc main_v118) = _
  dsimp only [hostOps8, hostOps8_1, hostOps8_2]
  after_results_simp
  rw [keepTo18 m ρ c (b := main_arg10) (by decide), arg3 m ρ c (b := main_arg10) (by decide)]
  exact Cert.LibRowLayouts.rowCast_eq _ _ _

/-- At the return the result buffer holds the reference's result stage of the arguments. -/
theorem out22 : W22 m ρ c (Proc.devRef .tc main_v119) = Cert.ReferenceIdeal.ReadP.val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W22_arr m ρ c 5).trans ?_
  refine (Arrays.array8 (V21 m ρ) c).trans ?_
  show Cert.Whole.head (W21 m ρ c (Proc.devRef .tc main_v116)) (W21 m ρ c (Proc.devRef .tc main_arg7)) (W21 m ρ c (Proc.devRef .tc main_v117))
      (W21 m ρ c (Proc.devRef .tc main_arg9)) (W21 m ρ c (Proc.devRef .tc main_v118)) = _
  rw [pooled21, keepTo21 m ρ c (b := main_arg7) (by decide), arg3 m ρ c (b := main_arg7) (by decide), hbias21,
    keepTo21 m ρ c (b := main_arg9) (by decide), arg3 m ρ c (b := main_arg9) (by decide), obias21]
  rfl

end Cert.KernelIdeal.Chain

end
-- ==== Proof.lean ====
/-
  The certificate of a graph convolution network's forward pass (four convolution layers, mean pooling per graph, a
  two-layer classifier head) computed by nine kernel launches among host operations, against the plain reference.

  On the extended reals the two programs compute the same function of the arguments. Both prepare the edge lists with
  the self-loops and the symmetric normalisation weights by the same host operations. In each layer the kernel program
  multiplies the node features by the weight matrix in ten blocks of 5000 rows, where the reference multiplies all rows
  at once: each output entry is the same sum over the contracted axis, and the blocks tile the rows. Both then gather,
  weight and scatter-add over the edges by the same host operations. The kernel program adds the bias and takes the
  positive part in ten blocks of rows, reading the bias as a one-row array obtained by a reshape; the reference
  broadcasts the bias vector into one row and over all rows: the same entries. Pooling is the same host operations, and
  the head is the same two affine maps with the positive part between them, on all pooled rows at once. No law beyond
  reading each operation at an entry is used, so the precondition is not opened.

  The three frames: the two kernel programs' are generated whole; the reference's is its run with the result dropped.
  The idealization rewrote no operation, so there is nothing to preserve.
-/
import proofs.«160234_j8280696947369_1_alg».proof.Defs
import proofs.«160234_j8280696947369_1_alg».proof.Proof.Gen.Kernel
import proofs.«160234_j8280696947369_1_alg».proof.Proof.Gen.Kernel.Skeleton
import proofs.«160234_j8280696947369_1_alg».proof.Proof.Gen.Kernel.Launch
import proofs.«160234_j8280696947369_1_alg».proof.Proof.Gen.Kernel.Points
import proofs.«160234_j8280696947369_1_alg».proof.Proof.Gen.Kernel.Frame
import proofs.«160234_j8280696947369_1_alg».proof.Proof.Gen.KernelIdeal
import proofs.«160234_j8280696947369_1_alg».proof.Proof.Gen.KernelIdeal.Skeleton
import proofs.«160234_j8280696947369_1_alg».proof.Proof.Gen.KernelIdeal.Launch
import proofs.«160234_j8280696947369_1_alg».proof.Proof.Gen.KernelIdeal.Points
import proofs.«160234_j8280696947369_1_alg».proof.Proof.Gen.KernelIdeal.Frame
import proofs.«160234_j8280696947369_1_alg».proof.Proof.Gen.ReferenceIdeal
import proofs.«160234_j8280696947369_1_alg».proof.Proof.RefRunPatched
import proofs.«160234_j8280696947369_1_alg».proof.Proof.RefReadPatched
import proofs.«160234_j8280696947369_1_alg».proof.Proof.Gen.Pre_finite_inputs
import proofs.«160234_j8280696947369_1_alg».proof.Proof.KernelRun
import proofs.«160234_j8280696947369_1_alg».proof.Proof.ChainHead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both runs end; the kernel program's result buffer holds the reference's result stage of its own arguments, the
    reference's result buffer the same stage of arguments that agree with them. -/
theorem algebraic : Cert.algebraic_KernelIdeal_ReferenceIdeal := by
  intro m ρ m' ρ' _ hagree
  refine ⟨fun c => Cert.KernelIdeal.Gen.W22 m ρ c (Proc.devRef .tc Cert.KernelIdeal.main_v119),
    Cert.KernelIdeal.Result.run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10⟩ := hagree c
  rw [Cert.ReferenceIdeal.ReadP.val_main_v133_eq, a0, a1, a2, a3, a4, a5, a6, a7, a8, a9, a10]
  exact (Cert.KernelIdeal.Chain.out22 m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
